-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8x1024 : Shape := ⟨2, ![8, 1024]⟩
abbrev S768x2304 : Shape := ⟨2, ![768, 2304]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S768x2304 : S_.BroadcastsInDim S768x2304 (![] : Fin 0 → Fin S768x2304.rank)
  reducesTo_S768x2304_S_d0_1 : S768x2304.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x1024x768 .f32) (main_arg1 : FVec F S8x1024 .f32) (main_arg2 : FVec F S768x2304 .f32) (main_arg3 : FVec F S768x768 .f32) (main_arg4 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S768x2304 .f32 := Host.absf main_arg2
  let main_cst_2 : FVec F S_ .f32 := constant S_ .f32 0x7F800000#32
  let main_v10 : FVec F S768x2304 .f32 := broadcastInDim S768x2304 ![] bcast_S_S768x2304 main_cst_2
  let main_v11 : IVec S768x2304 1 := cmpf .olt main_v9 main_v10
  let main_c_3 : IVec S_ 1 := constantI S_ 1 1#1
  let main_v12 : IVec S_ 1 := (fun x v => Host.reduce IntOp.andi x v reducesTo_S768x2304_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x1024x768 : Shape := ⟨3, ![8, 1024, 768]⟩
abbrev S8x1024 : Shape := ⟨2, ![8, 1024]⟩
abbrev S768x2304 : Shape := ⟨2, ![768, 2304]⟩
abbrev S768x768 : Shape := ⟨2, ![768, 768]⟩
abbrev S768 : Shape := ⟨1, ![768]⟩
abbrev S8x1024x1 : Shape := ⟨3, ![8, 1024, 1]⟩
abbrev S1x768 : Shape := ⟨2, ![1, 768]⟩
abbrev S1x1024x768 : Shape := ⟨3, ![1, 1024, 768]⟩
abbrev S1x1024x1 : Shape := ⟨3, ![1, 1024, 1]⟩
abbrev S1024x768 : Shape := ⟨2, ![1024, 768]⟩
abbrev S1024x1 : Shape := ⟨2, ![1024, 1]⟩
abbrev S1024x2304 : Shape := ⟨2, ![1024, 2304]⟩
abbrev S1024x12x64 : Shape := ⟨3, ![1024, 12, 64]⟩
abbrev S12x1024x64 : Shape := ⟨3, ![12, 1024, 64]⟩
abbrev S1x1024x64 : Shape := ⟨3, ![1, 1024, 64]⟩
abbrev S1024x64 : Shape := ⟨2, ![1024, 64]⟩
abbrev S1024x1024 : Shape := ⟨2, ![1024, 1024]⟩
abbrev S1024 : Shape := ⟨1, ![1024]⟩

abbrev nBuf : Space → Nat
  | .hbm => 11
  | .vmem => 9
  | .smem => 0
  | _ => 0

abbrev bufTy : (tb : Table) → Fin (tcTables nBuf tb) → BufTy
  | .hbm, ⟨0, _⟩ => ⟨S8x1024x768, .f32⟩
  | .hbm, ⟨1, _⟩ => ⟨S8x1024, .f32⟩
  | .hbm, ⟨2, _⟩ => ⟨S768x2304, .f32⟩
  | .hbm, ⟨3, _⟩ => ⟨S768x768, .f32⟩
  | .hbm, ⟨4, _⟩ => ⟨S768, .f32⟩
  | .hbm, ⟨5, _⟩ => ⟨S8x1024x1, .f32⟩
  | .hbm, ⟨6, _⟩ => ⟨S1x768, .f32⟩
  | .hbm, ⟨7, _⟩ => ⟨S8x1024x768, .bf16⟩
  | .hbm, ⟨8, _⟩ => ⟨S768x2304, .bf16⟩
  | .hbm, ⟨9, _⟩ => ⟨S768x768, .bf16⟩
  | .hbm, ⟨10, _⟩ => ⟨S8x1024x768, .f32⟩
  | .local _ .vmem, ⟨0, _⟩ => ⟨S1x1024x768, .bf16⟩
  | .local _ .vmem, ⟨1, _⟩ => ⟨S1x1024x768, .bf16⟩
  | .local _ .vmem, ⟨2, _⟩ => ⟨S1x1024x1, .f32⟩
  | .local _ .vmem, ⟨3, _⟩ => ⟨S1x1024x1, .f32⟩
  | .local _ .vmem, ⟨4, _⟩ => ⟨S768x2304, .bf16⟩
  | .local _ .vmem, ⟨5, _⟩ => ⟨S768x768, .bf16⟩
  | .local _ .vmem, ⟨6, _⟩ => ⟨S1x768, .f32⟩
  | .local _ .vmem, ⟨7, _⟩ => ⟨S1x1024x768, .f32⟩
  | .local _ .vmem, ⟨8, _⟩ => ⟨S1x1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x1024_S8x1024x1 : S8x1024.ShapeCasts S8x1024x1
  shapeCasts_S768_S1x768 : S768.ShapeCasts S1x768
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x768 : S1024x1.Broadcasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  slices_S1024x2304_o0_0_S1024x768 : S1024x2304.Slices ![0, 0] S1024x768
  slices_S1024x2304_o0_768_S1024x768 : S1024x2304.Slices ![0, 768] S1024x768
  slices_S1024x2304_o0_1536_S1024x768 : S1024x2304.Slices ![0, 1536] S1024x768
  shapeCasts_S1024x768_S1024x12x64 : S1024x768.ShapeCasts S1024x12x64
  transposes_S1024x12x64_p1_0_2_S12x1024x64 : S1024x12x64.Transposes [1, 0, 2] S12x1024x64
  slices_S12x1024x64_o0_0_0_S1x1024x64 : S12x1024x64.Slices ![0, 0, 0] S1x1024x64
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  slices_S12x1024x64_o1_0_0_S1x1024x64 : S12x1024x64.Slices ![1, 0, 0] S1x1024x64
  slices_S12x1024x64_o2_0_0_S1x1024x64 : S12x1024x64.Slices ![2, 0, 0] S1x1024x64
  slices_S12x1024x64_o3_0_0_S1x1024x64 : S12x1024x64.Slices ![3, 0, 0] S1x1024x64
  slices_S12x1024x64_o4_0_0_S1x1024x64 : S12x1024x64.Slices ![4, 0, 0] S1x1024x64
  slices_S12x1024x64_o5_0_0_S1x1024x64 : S12x1024x64.Slices ![5, 0, 0] S1x1024x64
  slices_S12x1024x64_o6_0_0_S1x1024x64 : S12x1024x64.Slices ![6, 0, 0] S1x1024x64
  slices_S12x1024x64_o7_0_0_S1x1024x64 : S12x1024x64.Slices ![7, 0, 0] S1x1024x64
  slices_S12x1024x64_o8_0_0_S1x1024x64 : S12x1024x64.Slices ![8, 0, 0] S1x1024x64
  slices_S12x1024x64_o9_0_0_S1x1024x64 : S12x1024x64.Slices ![9, 0, 0] S1x1024x64
  slices_S12x1024x64_o10_0_0_S1x1024x64 : S12x1024x64.Slices ![10, 0, 0] S1x1024x64
  slices_S12x1024x64_o11_0_0_S1x1024x64 : S12x1024x64.Slices ![11, 0, 0] S1x1024x64
  shapeCasts_S1024x64_S1x1024x64 : S1024x64.ShapeCasts S1x1024x64
  concatenates_S1x1024x64_S1x1024x64_S1x1024x64_S1x1024x64_S1x1024x64_S1x1024x64_S1x1024x64_S1x1024x64_S1x1024x64_S1x1024x64_S1x1024x64_S1x1024x64_S12x1024x64_d0 : Shape.Concatenates [S1x1024x64, S1x1024x64, S1x1024x64, S1x1024x64, S1x1024x64, S1x1024x64, S1x1024x64, S1x1024x64, S1x1024x64, S1x1024x64, S1x1024x64, S1x1024x64] S12x1024x64 0
  transposes_S12x1024x64_p1_0_2_S1024x12x64 : S12x1024x64.Transposes [1, 0, 2] S1024x12x64
  shapeCasts_S1024x12x64_S1024x768 : S1024x12x64.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .bf16 = 32 ∨ (Rect.block (s := S8x1024x768) S1x1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S8x1024x1.size a
  hwx0_1 : ∀ i : grid0.Coords, EltTy.bits .f32 = 32 ∨ (Rect.block (s := S8x1024x1) S1x1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x2304.size a ≤ S768x2304.size a
  hwx0_2 : ∀ i : grid0.Coords, EltTy.bits .bf16 = 32 ∨ (Rect.block (s := S768x2304) S768x2304.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x768.size a ≤ S8x1024x768.size a
  hwx0_5 : ∀ i : grid0.Coords, EltTy.bits .f32 = 32 ∨ (Rect.block (s := S8x1024x768) S1x1024x768.size (cc0_transform_5 i) (hinb0_5 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v2) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S8x1024 : Shape := ⟨2, ![8, 1024]⟩
abbrev S768x2304 : Shape := ⟨2, ![768, 2304]⟩
abbrev S768x768 : Shape := ⟨2, ![768, 768]⟩
abbrev S768 : Shape := ⟨1, ![768]⟩
abbrev S8x1024x2304 : Shape := ⟨3, ![8, 1024, 2304]⟩
abbrev S8x1024x1 : Shape := ⟨3, ![8, 1024, 1]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024, .f32⟩
  | .hbm, ⟨2, _⟩ => ⟨S768x2304, .f32⟩
  | .hbm, ⟨3, _⟩ => ⟨S768x768, .f32⟩
  | .hbm, ⟨4, _⟩ => ⟨S768, .f32⟩
  | .hbm, ⟨5, _⟩ => ⟨S8x1024x2304, .f32⟩
  | .hbm, ⟨6, _⟩ => ⟨S8x1024x1, .f32⟩
  | .hbm, ⟨7, _⟩ => ⟨S8x1024x2304, .f32⟩
  | .hbm, ⟨8, _⟩ => ⟨S8x1024x2304, .f32⟩
  | .hbm, ⟨9, _⟩ => ⟨S8x1024x3x12x64, .f32⟩
  | .hbm, ⟨10, _⟩ => ⟨S3x8x12x1024x64, .f32⟩
  | .hbm, ⟨11, _⟩ => ⟨S1x8x12x1024x64, .f32⟩
  | .hbm, ⟨12, _⟩ => ⟨S8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S8x12x1024x1024, .f32⟩
  | .hbm, ⟨18, _⟩ => ⟨S_, .f32⟩
  | .hbm, ⟨19, _⟩ => ⟨S8x12x1024x1024, .f32⟩
  | .hbm, ⟨20, _⟩ => ⟨S8x12x1024x1024, .f32⟩
  | .hbm, ⟨21, _⟩ => ⟨S_, .f32⟩
  | .hbm, ⟨22, _⟩ => ⟨S8x12x1024, .f32⟩
  | .hbm, ⟨23, _⟩ => ⟨S_, .f32⟩
  | .hbm, ⟨24, _⟩ => ⟨S8x12x1024, .f32⟩
  | .hbm, ⟨25, _⟩ => ⟨S8x12x1024, .f32⟩
  | .hbm, ⟨26, _⟩ => ⟨S8x12x1024x1, .f32⟩
  | .hbm, ⟨27, _⟩ => ⟨S8x12x1024x1024, .f32⟩
  | .hbm, ⟨28, _⟩ => ⟨S8x12x1024x1024, .f32⟩
  | .hbm, ⟨29, _⟩ => ⟨S8x12x1024x1024, .f32⟩
  | .hbm, ⟨30, _⟩ => ⟨S_, .f32⟩
  | .hbm, ⟨31, _⟩ => ⟨S8x12x1024, .f32⟩
  | .hbm, ⟨32, _⟩ => ⟨S8x12x1024x1, .f32⟩
  | .hbm, ⟨33, _⟩ => ⟨S8x12x1024x1024, .f32⟩
  | .hbm, ⟨34, _⟩ => ⟨S8x12x1024x1024, .f32⟩
  | .hbm, ⟨35, _⟩ => ⟨S8x12x1024x64, .f32⟩
  | .hbm, ⟨36, _⟩ => ⟨S8x1024x12x64, .f32⟩
  | .hbm, ⟨37, _⟩ => ⟨S8x1024x768, .f32⟩
  | .hbm, ⟨38, _⟩ => ⟨S8x1024x768, .f32⟩
  | .hbm, ⟨39, _⟩ => ⟨S1x1x768, .f32⟩
  | .hbm, ⟨40, _⟩ => ⟨S8x1024x768, .f32⟩
  | .hbm, ⟨41, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024x1_S8x1024x2304_0_1_2 : S8x1024x1.BroadcastsInDim S8x1024x2304 (![0, 1, 2] : Fin 3 → Fin S8x1024x2304.rank)
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S768x2304_S8x1024x2304_2_0_01_1_n_n_wf : DotDims.WF S8x1024x768 S768x2304 S8x1024x2304 [2] [0] [0, 1] [1] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_0_01_1_n_n_wf : DotDims.WF S8x1024x768 S768x768 S8x1024x768 [2] [0] [0, 1] [1] [] []

variable [Facts₀]

def dot_S8x1024x768_S768x2304_S8x1024x2304_2_0_01_1_n_n : DotDims S8x1024x768 S768x2304 S8x1024x2304 where
  lhsContracting := [2]
  rhsContracting := [0]
  lhsNonContracting := [0, 1]
  rhsNonContracting := [1]
  lhsBatch := []
  rhsBatch := []
  wf := dot_S8x1024x768_S768x2304_S8x1024x2304_2_0_01_1_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_0_01_1_n_n : DotDims S8x1024x768 S768x768 S8x1024x768 where
  lhsContracting := [2]
  rhsContracting := [0]
  lhsNonContracting := [0, 1]
  rhsNonContracting := [1]
  lhsBatch := []
  rhsBatch := []
  wf := dot_S8x1024x768_S768x768_S8x1024x768_2_0_01_1_n_n_wf

class Facts : Prop extends Facts₀ where

variable [Facts]
-- ==== Proof.Spec.lean ====
/-
  Multi-head self-attention of one batch of 1024 tokens of width 768 (twelve heads of width 64), with a per-token gate,
  written by coordinates on the extended reals, in the two arrangements the two programs compute it in.

  Arguments: x(b, n, d) the tokens, w(b, n) the gate, Wq(d, j) the joint projection to queries, keys and values
  (column j = t·768 + h·64 + e: part t of head h, lane e), Wm(c, f) the output projection, bm(f) its bias.

  First arrangement ("gate first, normalise last"): the gate multiplies the token before the projection, the scale 1/8
  multiplies the query before the scores, and the weighted sum of the values is divided by the sum of the exponentials.
  Second arrangement ("gate last, normalise first"): the gate multiplies the projected row, the scale multiplies the
  score, each exponential is divided by the sum of the exponentials (the softmax weight) before it weighs a value.
  On real-valued arguments the two are the same function (proved elsewhere, from distributivity over finite sums).
-/
import Mathlib
import Idealize.ShloMosaic.PureOps.Ideal
import Idealize.ShloMosaic.PureOps.Ideal.Laws

noncomputable section

open scoped BigOperators

namespace Cert.Attn

open Idealize.ShloMosaic

/-- The scale 1/8 = 64^(-1/2), as both programs spell it. -/
abbrev scale : EReal := Ideal.ofBits .f32 0x3E000000#32
/-- Minus infinity, the start of every running maximum, as both programs spell it. -/
abbrev negInf : EReal := Ideal.ofBits .f32 0xFF800000#32
/-- Zero, the start of the reference's sums, as it spells it. -/
abbrev zero : EReal := Ideal.ofBits .f32 0x00000000#32

/-- Column t·768 + h·64 + e of the joint projection: part t (query, key, value) of head h, lane e. -/
def col (t : Fin 3) (h : Fin 12) (e : Fin 64) : Fin 2304 :=
  ⟨t.val * 768 + h.val * 64 + e.val, by have := t.isLt; have := h.isLt; have := e.isLt; omega⟩

/-- The head a column of the concatenated heads belongs to. -/
def headOf (c : Fin 768) : Fin 12 := ⟨c.val / 64, by have := c.isLt; omega⟩
/-- The lane of a column of the concatenated heads inside its head. -/
def laneOf (c : Fin 768) : Fin 64 := ⟨c.val % 64, by omega⟩

/-! ## One head, on queries q(n, e), keys k(m, e), values v(m, e) -/

/-- The running maximum of a row of scores, from minus infinity. -/
def rowMax (s : Fin 1024 → EReal) : EReal := (Finset.univ : Finset (Fin 1024)).fold max negInf s

/-- Scores with the scale already in the queries: Σ_e q(n, e) · k(m, e). -/
def scoreK (q k : Fin 1024 → Fin 64 → EReal) (n m : Fin 1024) : EReal := ∑ e : Fin 64, q n e * k m e

/-- The exponentials of a row of scores less its maximum. -/
def expoK (s : Fin 1024 → Fin 1024 → EReal) (n m : Fin 1024) : EReal := Ideal.exp (s n m - rowMax (s n))

/-- One head, normalised last: (Σ_m p(n, m) · v(m, e)) / Σ_m p(n, m). -/
def headK (q k v : Fin 1024 → Fin 64 → EReal) (n : Fin 1024) (e : Fin 64) : EReal :=
  Ideal.div (∑ m : Fin 1024, expoK (scoreK q k) n m * v m e) (∑ m : Fin 1024, expoK (scoreK q k) n m)

/-- Scores scaled after the contraction: (Σ_e q(n, e) · k(m, e)) · 1/8. -/
def scoreR (q k : Fin 1024 → Fin 64 → EReal) (n m : Fin 1024) : EReal := (∑ e : Fin 64, q n e * k m e) * scale

/-- The reference's row maximum: the running maximum once more against minus infinity. -/
def rowMaxR (s : Fin 1024 → EReal) : EReal := max negInf (rowMax s)

/-- The exponentials of a row of scores less the reference's maximum. -/
def expoR (s : Fin 1024 → Fin 1024 → EReal) (n m : Fin 1024) : EReal := Ideal.exp (s n m - rowMaxR (s n))

/-- One head, normalised first: Σ_m (p(n, m) / (0 + Σ_m' p(n, m'))) · v(m, e). -/
def headR (q k v : Fin 1024 → Fin 64 → EReal) (n : Fin 1024) (e : Fin 64) : EReal :=
  ∑ m : Fin 1024, Ideal.div (expoR (scoreR q k) n m) (zero + ∑ m' : Fin 1024, expoR (scoreR q k) n m') * v m e

/-! ## The whole layer -/

section
variable (x : Fin 8 → Fin 1024 → Fin 768 → EReal) (w : Fin 8 → Fin 1024 → EReal)
  (Wq : Fin 768 → Fin 2304 → EReal) (Wm : Fin 768 → Fin 768 → EReal) (bm : Fin 768 → EReal)

/-- The joint projection of the gated token: Σ_d (x(b, n, d) · w(b, n)) · Wq(d, j). -/
def qkvK (b : Fin 8) (n : Fin 1024) (j : Fin 2304) : EReal := ∑ d : Fin 768, (x b n d * w b n) * Wq d j

/-- The scaled queries of head h. -/
def qK (b : Fin 8) (h : Fin 12) (n : Fin 1024) (e : Fin 64) : EReal := qkvK x w Wq b n (col 0 h e) * scale
/-- The keys of head h. -/
def kK (b : Fin 8) (h : Fin 12) (n : Fin 1024) (e : Fin 64) : EReal := qkvK x w Wq b n (col 1 h e)
/-- The values of head h. -/
def vK (b : Fin 8) (h : Fin 12) (n : Fin 1024) (e : Fin 64) : EReal := qkvK x w Wq b n (col 2 h e)

/-- The layer, first arrangement: the heads side by side, projected by Wm, plus the bias. -/
def outK (b : Fin 8) (n : Fin 1024) (f : Fin 768) : EReal :=
  (∑ c : Fin 768, headK (qK x w Wq b (headOf c)) (kK x w Wq b (headOf c)) (vK x w Wq b (headOf c)) n (laneOf c) * Wm c f)
    + bm f

/-- The gated joint projection of the token: w(b, n) · Σ_d x(b, n, d) · Wq(d, j). -/
def qkvR (b : Fin 8) (n : Fin 1024) (j : Fin 2304) : EReal := w b n * ∑ d : Fin 768, x b n d * Wq d j

/-- The queries of head h. -/
def qR (b : Fin 8) (h : Fin 12) (n : Fin 1024) (e : Fin 64) : EReal := qkvR x w Wq b n (col 0 h e)
/-- The keys of head h. -/
def kR (b : Fin 8) (h : Fin 12) (n : Fin 1024) (e : Fin 64) : EReal := qkvR x w Wq b n (col 1 h e)
/-- The values of head h. -/
def vR (b : Fin 8) (h : Fin 12) (n : Fin 1024) (e : Fin 64) : EReal := qkvR x w Wq b n (col 2 h e)

/-- The layer, second arrangement. -/
def outR (b : Fin 8) (n : Fin 1024) (f : Fin 768) : EReal :=
  (∑ c : Fin 768, headR (qR x w Wq b (headOf c)) (kR x w Wq b (headOf c)) (vR x w Wq b (headOf c)) n (laneOf c) * Wm c f)
    + bm f

end

end Cert.Attn

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Head.lean ====
/-
  One attention head on whole 1024×64 blocks, as the vector unit computes it, and what it holds at an index.

  On queries qh, keys kh and values vh (1024 tokens, 64 lanes): the scores are the product of qh with the transpose of kh
  (contracted over the 64 lanes), each row of scores is lowered by its running maximum and exponentiated, the
  exponentials weigh the rows of vh, and the weighted sum is divided by the row's sum of exponentials. At entry (n, e)
  this is  (Σ_m p(n, m) · vh(m, e)) / Σ_m p(n, m)  with  p(n, m) = exp(s(n, m) − max_m' s(n, m')),
  s(n, m) = Σ_e' qh(n, e') · kh(m, e'): the first arrangement of one head.
-/
import proofs.«144339_j35923106463893_2_alg».proof.KernelIdeal
import proofs.«144339_j35923106463893_2_alg».proof.Proof.Spec
import proofs.«144339_j35923106463893_2_alg».proof.Proof.LibAxisFold
import proofs.«144339_j35923106463893_2_alg».proof.Proof.LibTransposedDot
import proofs.«144339_j35923106463893_2_alg».proof.Proof.LibPlainDot
import proofs.«144339_j35923106463893_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Kernel

open Idealize.ShloMosaic Idealize.ShloMosaic.ValueIdx Cert.KernelIdeal

variable [Cert.KernelIdeal.Facts]
open Cert.KernelIdeal.Facts₀ Cert.KernelIdeal.Facts

/-- One head on blocks: scores, running maximum, exponentials, their row sums, the weighted sum of the values, the
    quotient. -/
def headVec {F : FTy → Type} [FloatOps F] (qh kh vh : FVec F S1024x64 .bf16) : FVec F S1024x64 .bf16 :=
  have s : FVec F S1024x1024 .f32 := matmul dot_S1024x64_S1024x64_S1024x1024_1_1_0_0_n_n none qh kh (constant S1024x1024 .f32 0x00000000#32)
  have mx : FVec F S1024 .f32 := multiReduction .maximumf [1] S1024 s 0xFF800000#32 reduces_S1024x1024_S1024 (.inl rfl) rfl
  have mxc : FVec F S1024x1 .f32 := shapeCast S1024x1 mx shapeCasts_S1024_S1024x1
  have mxb : FVec F S1024x1024 .f32 := broadcastTo S1024x1024 mxc broadcasts_S1024x1_S1024x1024
  have d : FVec F S1024x1024 .f32 := subf s mxb
  have p : FVec F S1024x1024 .f32 := exp d
  have l : FVec F S1024 .f32 := multiReduction .add [1] S1024 p 0x00000000#32 reduces_S1024x1024_S1024 (.inl rfl) rfl
  have lc : FVec F S1024x1 .f32 := shapeCast S1024x1 l shapeCasts_S1024_S1024x1
  have pb : FVec F S1024x1024 .bf16 := truncf .bf16 p bitsLt_bf16_f32
  have o : FVec F S1024x64 .f32 := matmul dot_S1024x1024_S1024x64_S1024x64_1_0_0_1_n_n none pb vh (constant S1024x64 .f32 0x00000000#32)
  have lb : FVec F S1024x64 .f32 := broadcastTo S1024x64 lc broadcasts_S1024x1_S1024x64
  have r : FVec F S1024x64 .f32 := divf o lb
  truncf .bf16 r bitsLt_bf16_f32

/-- The product with the transposed keys is the library's M×K by N×K product. -/
theorem dotT_eq : dot_S1024x64_S1024x64_S1024x1024_1_1_0_0_n_n = DotDims.transposedRhs 1024 64 1024 := rfl

/-- The product with the values is the library's plain M×K by K×N product. -/
theorem dotP_eq : dot_S1024x1024_S1024x64_S1024x64_1_0_0_1_n_n = DotDims.plain 1024 1024 64 := rfl

/-- The scores at (n, m). -/
theorem scores_apply (qh kh : FVec Ideal S1024x64 .bf16) (n m : Fin 1024) :
    matmul dot_S1024x64_S1024x64_S1024x1024_1_1_0_0_n_n none qh kh (constant S1024x1024 .f32 0x00000000#32) (ix2 n m)
      = Cert.Attn.scoreK (fun n e => qh (ix2 n e)) (fun n e => kh (ix2 n e)) n m := by
  rw [dotT_eq]
  exact TransposedDot.matmul_zero_apply none qh kh n m

/-- The running maximum of row n of an array of scores, kept as a column and spread over the row. -/
theorem rowmax_apply (s : FVec Ideal S1024x1024 .f32) (n m : Fin 1024) :
    broadcastTo S1024x1024 (shapeCast S1024x1 (multiReduction .maximumf [1] S1024 s 0xFF800000#32 reduces_S1024x1024_S1024 (.inl rfl) rfl)
        shapeCasts_S1024_S1024x1) broadcasts_S1024x1_S1024x1024 (ix2 n m)
      = Cert.Attn.rowMax (fun k => s (ix2 n k)) := by
  refine (Keepdims.broadcastTo_a1_ab_apply _ _ n m).trans ?_
  refine (Keepdims.shapeCast_a_a1_apply _ _ n 0).trans ?_
  exact AxisFold.max_second_apply s 0xFF800000#32 reduces_S1024x1024_S1024 (.inl rfl) rfl n

/-- The sum of row n of an array, kept as a column and spread over 64 lanes. -/
theorem rowsum_apply (p : FVec Ideal S1024x1024 .f32) (n : Fin 1024) (e : Fin 64) :
    broadcastTo S1024x64 (shapeCast S1024x1 (multiReduction .add [1] S1024 p 0x00000000#32 reduces_S1024x1024_S1024 (.inl rfl) rfl)
        shapeCasts_S1024_S1024x1) broadcasts_S1024x1_S1024x64 (ix2 n e)
      = ∑ k : Fin 1024, p (ix2 n k) := by
  refine (Keepdims.broadcastTo_a1_ab_apply _ _ n e).trans ?_
  refine (Keepdims.shapeCast_a_a1_apply _ _ n 0).trans ?_
  exact AxisFold.sum_second_apply p reduces_S1024x1024_S1024 (.inl rfl) rfl n

/-- The weighted sum of the values at (n, e). -/
theorem weighted_apply (pb : FVec Ideal S1024x1024 .bf16) (vh : FVec Ideal S1024x64 .bf16) (n : Fin 1024) (e : Fin 64) :
    matmul dot_S1024x1024_S1024x64_S1024x64_1_0_0_1_n_n none pb vh (constant S1024x64 .f32 0x00000000#32) (ix2 n e)
      = ∑ k : Fin 1024, pb (ix2 n k) * vh (ix2 k e) := by
  rw [dotP_eq]
  exact PlainDot.matmul_zero_apply none pb vh n e

/-- One head at entry (n, e): the first arrangement of a head, on the blocks' entries. -/
theorem headVec_apply (qh kh vh : FVec Ideal S1024x64 .bf16) (n : Fin 1024) (e : Fin 64) :
    headVec (F := Ideal) qh kh vh (ix2 n e)
      = Cert.Attn.headK (fun n e => qh (ix2 n e)) (fun n e => kh (ix2 n e)) (fun n e => vh (ix2 n e)) n e := by
  unfold headVec
  dsimp only
  rw [truncf_apply, divf_apply, weighted_apply, rowsum_apply]
  unfold Cert.Attn.headK
  have hp : ∀ k : Fin 1024,
      exp (subf (matmul dot_S1024x64_S1024x64_S1024x1024_1_1_0_0_n_n none qh kh (constant S1024x1024 .f32 0x00000000#32))
        (broadcastTo S1024x1024 (shapeCast S1024x1 (multiReduction .maximumf [1] S1024
          (matmul dot_S1024x64_S1024x64_S1024x1024_1_1_0_0_n_n none qh kh (constant S1024x1024 .f32 0x00000000#32))
          0xFF800000#32 reduces_S1024x1024_S1024 (.inl rfl) rfl) shapeCasts_S1024_S1024x1) broadcasts_S1024x1_S1024x1024)) (ix2 n k)
        = Cert.Attn.expoK (Cert.Attn.scoreK (fun n e => qh (ix2 n e)) (fun n e => kh (ix2 n e))) n k := by
    intro k
    show Ideal.exp (_ - _) = _
    rw [rowmax_apply, scores_apply]
    unfold Cert.Attn.expoK
    congr 2
    exact congrArg Cert.Attn.rowMax (funext fun j => scores_apply qh kh n j)
  refine congrArg₂ Ideal.div (Finset.sum_congr rfl fun k _ => ?_) (Finset.sum_congr rfl fun k _ => hp k)
  rw [truncf_apply, hp k]

end Cert.Attn.Kernel

end
-- ==== Proof.Heads.lean ====
/-
  The body's result as twelve heads and one output projection.

  The joint projection is split into queries, keys and values, each re-laid as a stack of twelve 1024×64 slabs, one per
  head. Head h is the one-head function of slab h of each stack. The twelve head results, side by side (head h in columns
  64h … 64h+63), are multiplied by the output projection and the bias row is added to every row.
-/
import proofs.«144339_j35923106463893_2_alg».proof.Proof.Gen.KernelIdeal.Skeleton
import proofs.«144339_j35923106463893_2_alg».proof.Proof.Head

noncomputable section

open scoped BigOperators

namespace Cert.Attn.Kernel

open Idealize.ShloMosaic Idealize.ShloMosaic.ValueIdx Cert.KernelIdeal Cert.KernelIdeal.Gen

/-- Slab h of a stack of twelve is inside the stack. -/
theorem slab_slices (h : Fin 12) : S12x1024x64.Slices ![h.val, 0, 0] S1x1024x64 := by
  fin_cases h <;> decide

/-- Slab h of a stack of twelve 1024×64 slabs, as a 1024×64 block. -/
def slab {α : Type} (h : Fin 12) (X : S12x1024x64.Idx → α) : S1024x64.Idx → α :=
  shapeCast S1024x64 (extractStridedSlice S1x1024x64 ![h.val, 0, 0] X (slab_slices h)) shapeCasts_S1x1024x64_S1024x64

/-- Twelve 1×1024×64 slabs stack to 12×1024×64. -/
theorem stack_fact {α : Type} (g : Fin 12 → (S1x1024x64.Idx → α)) :
    Shape.Concatenates ((List.ofFn fun h : Fin 12 => (⟨S1x1024x64, g h⟩ : (s : Shape) × (s.Idx → α))).map (·.1)) S12x1024x64 0 :=
  concatenates_S1x1024x64_S1x1024x64_S1x1024x64_S1x1024x64_S1x1024x64_S1x1024x64_S1x1024x64_S1x1024x64_S1x1024x64_S1x1024x64_S1x1024x64_S1x1024x64_S12x1024x64_d0

/-- The heads side by side, times the output projection, plus the bias row, as a 1×1024×768 block. -/
def finalVec {F : FTy → Type} [FloatOps F] (hd : Fin 12 → FVec F S1024x64 .bf16) (wm : Vec F S768x768 .bf16) (bias : Vec F S1x768 .f32) :
    FVec F S1x1024x768 .f32 :=
  have cat : FVec F S12x1024x64 .bf16 := concatenate S12x1024x64 0
    (List.ofFn fun h : Fin 12 => (⟨S1x1024x64, shapeCast S1x1024x64 (hd h) shapeCasts_S1024x64_S1x1024x64⟩ : (s : Shape) × (s.Idx → F .bf16)))
    (stack_fact _)
  have tr : FVec F S1024x12x64 .bf16 := transpose S1024x12x64 [1, 0, 2] cat transposes_S12x1024x64_p1_0_2_S1024x12x64
  have flat : FVec F S1024x768 .bf16 := shapeCast S1024x768 tr shapeCasts_S1024x12x64_S1024x768
  have wmc : FVec F S768x768 .bf16 := shapeCast S768x768 wm shapeCasts_S768x768_S768x768
  have pr : FVec F S1024x768 .f32 := matmul dot_S1024x768_S768x768_S1024x768_1_0_0_1_n_n none flat wmc (constant S1024x768 .f32 0x00000000#32)
  have bc : FVec F S1x768 .f32 := shapeCast S1x768 bias shapeCasts_S1x768_S1x768
  have bb : FVec F S1024x768 .f32 := broadcastTo S1024x768 bc broadcasts_S1x768_S1024x768
  shapeCast S1x1024x768 (addf pr bb) shapeCasts_S1024x768_S1x1024x768

section
variable {F : FTy → Type} [FloatOps F] (l0 : Vec F S1x1024x768 .bf16) (l1 : Vec F S1x1024x1 .f32) (l2 : Vec F S768x2304 .bf16)

/-! Each head of the body is the one-head function of the slabs of the three stacks. -/

theorem head0_eq : k0_pay6 l0 l1 l2 = headVec (slab 0 (k0_pay3 l0 l1 l2)) (slab 0 (k0_pay4 l0 l1 l2)) (slab 0 (k0_pay5 l0 l1 l2)) := rfl
theorem head1_eq : k0_pay8 (k0_pay4 l0 l1 l2) (k0_pay5 l0 l1 l2) (k0_pay7 l0 l1 l2) = headVec (slab 1 (k0_pay3 l0 l1 l2)) (slab 1 (k0_pay4 l0 l1 l2)) (slab 1 (k0_pay5 l0 l1 l2)) := rfl
theorem head2_eq : k0_pay9 (k0_pay3 l0 l1 l2) (k0_pay4 l0 l1 l2) (k0_pay5 l0 l1 l2) = headVec (slab 2 (k0_pay3 l0 l1 l2)) (slab 2 (k0_pay4 l0 l1 l2)) (slab 2 (k0_pay5 l0 l1 l2)) := rfl
theorem head3_eq : k0_pay12 (k0_pay10 (k0_pay5 l0 l1 l2)) (k0_pay11 (k0_pay3 l0 l1 l2) (k0_pay4 l0 l1 l2)) = headVec (slab 3 (k0_pay3 l0 l1 l2)) (slab 3 (k0_pay4 l0 l1 l2)) (slab 3 (k0_pay5 l0 l1 l2)) := rfl
theorem head4_eq : k0_pay13 (k0_pay3 l0 l1 l2) (k0_pay4 l0 l1 l2) (k0_pay5 l0 l1 l2) = headVec (slab 4 (k0_pay3 l0 l1 l2)) (slab 4 (k0_pay4 l0 l1 l2)) (slab 4 (k0_pay5 l0 l1 l2)) := rfl
theorem head5_eq : k0_pay14 (k0_pay3 l0 l1 l2) (k0_pay4 l0 l1 l2) (k0_pay5 l0 l1 l2) = headVec (slab 5 (k0_pay3 l0 l1 l2)) (slab 5 (k0_pay4 l0 l1 l2)) (slab 5 (k0_pay5 l0 l1 l2)) := rfl
theorem head6_eq : k0_pay18 (k0_pay15 (k0_pay3 l0 l1 l2)) (k0_pay16 (k0_pay4 l0 l1 l2)) (k0_pay17 (k0_pay5 l0 l1 l2)) = headVec (slab 6 (k0_pay3 l0 l1 l2)) (slab 6 (k0_pay4 l0 l1 l2)) (slab 6 (k0_pay5 l0 l1 l2)) := rfl
theorem head7_eq : k0_pay19 (k0_pay3 l0 l1 l2) (k0_pay4 l0 l1 l2) (k0_pay5 l0 l1 l2) = headVec (slab 7 (k0_pay3 l0 l1 l2)) (slab 7 (k0_pay4 l0 l1 l2)) (slab 7 (k0_pay5 l0 l1 l2)) := rfl
theorem head8_eq : k0_pay23 (k0_pay21 (k0_pay3 l0 l1 l2) (k0_pay4 l0 l1 l2)) (k0_pay22 (k0_pay3 l0 l1 l2) (k0_pay4 l0 l1 l2) (k0_pay5 l0 l1 l2)) = headVec (slab 8 (k0_pay3 l0 l1 l2)) (slab 8 (k0_pay4 l0 l1 l2)) (slab 8 (k0_pay5 l0 l1 l2)) := rfl
theorem head9_eq : k0_pay24 (k0_pay3 l0 l1 l2) (k0_pay4 l0 l1 l2) (k0_pay5 l0 l1 l2) = headVec (slab 9 (k0_pay3 l0 l1 l2)) (slab 9 (k0_pay4 l0 l1 l2)) (slab 9 (k0_pay5 l0 l1 l2)) := rfl
theorem head10_eq : k0_pay25 (k0_pay3 l0 l1 l2) (k0_pay4 l0 l1 l2) (k0_pay5 l0 l1 l2) = headVec (slab 10 (k0_pay3 l0 l1 l2)) (slab 10 (k0_pay4 l0 l1 l2)) (slab 10 (k0_pay5 l0 l1 l2)) := rfl

/-- The body's stored value: the twelve heads through the output projection. -/
theorem payload_eq (l3 : Vec F S768x768 .bf16) (l4 : Vec F S1x768 .f32) :
    k0_pay1 (k0_pay6 l0 l1 l2) (k0_pay8 (k0_pay4 l0 l1 l2) (k0_pay5 l0 l1 l2) (k0_pay7 l0 l1 l2)) (k0_pay9 (k0_pay3 l0 l1 l2) (k0_pay4 l0 l1 l2) (k0_pay5 l0 l1 l2)) (k0_pay12 (k0_pay10 (k0_pay5 l0 l1 l2)) (k0_pay11 (k0_pay3 l0 l1 l2) (k0_pay4 l0 l1 l2))) (k0_pay13 (k0_pay3 l0 l1 l2) (k0_pay4 l0 l1 l2) (k0_pay5 l0 l1 l2)) (k0_pay14 (k0_pay3 l0 l1 l2) (k0_pay4 l0 l1 l2) (k0_pay5 l0 l1 l2)) (k0_pay18 (k0_pay15 (k0_pay3 l0 l1 l2)) (k0_pay16 (k0_pay4 l0 l1 l2)) (k0_pay17 (k0_pay5 l0 l1 l2))) (k0_pay19 (k0_pay3 l0 l1 l2) (k0_pay4 l0 l1 l2) (k0_pay5 l0 l1 l2)) (k0_pay23 (k0_pay21 (k0_pay3 l0 l1 l2) (k0_pay4 l0 l1 l2)) (k0_pay22 (k0_pay3 l0 l1 l2) (k0_pay4 l0 l1 l2) (k0_pay5 l0 l1 l2))) (k0_pay24 (k0_pay3 l0 l1 l2) (k0_pay4 l0 l1 l2) (k0_pay5 l0 l1 l2)) (k0_pay25 (k0_pay3 l0 l1 l2) (k0_pay4 l0 l1 l2) (k0_pay5 l0 l1 l2)) (k0_pay26 (k0_pay5 l0 l1 l2)) (k0_pay27 (k0_pay3 l0 l1 l2) (k0_pay4 l0 l1 l2)) (k0_pay28 (k0_pay3 l0 l1 l2) (k0_pay4 l0 l1 l2)) l3 l4
      = finalVec (fun h => headVec (slab h (k0_pay3 l0 l1 l2)) (slab h (k0_pay4 l0 l1 l2)) (slab h (k0_pay5 l0 l1 l2))) l3 l4 := by
  rw [head0_eq, head1_eq, head2_eq, head3_eq, head4_eq, head5_eq, head6_eq, head7_eq, head8_eq, head9_eq, head10_eq]
  rfl

end

end Cert.Attn.Kernel

end
-- ==== Proof.HeadsRead.lean ====
/-
  The slab of a stack and the final projection, read at an index.

  Slab h of a stack at (n, e) is the stack at (h, n, e). The heads side by side at (n, c) hold head c / 64 at lane c % 64,
  so the projected row at (n, f) is  Σ_c head_{c/64}(n, c % 64) · Wm(c, f) + bias(f).
-/
import proofs.«144339_j35923106463893_2_alg».proof.Proof.Heads

noncomputable section

open scoped BigOperators

namespace Cert.Attn.Kernel

open Idealize.ShloMosaic Idealize.ShloMosaic.ValueIdx Cert.KernelIdeal Cert.KernelIdeal.Gen

/-- Slab h at (n, e) is the stack at (h, n, e). -/
theorem slab_apply {α : Type} (h : Fin 12) (X : S12x1024x64.Idx → α) (n : Fin 1024) (e : Fin 64) :
    slab h X (ix2 n e) = X (ix3 h n e) := by
  unfold slab
  refine (shapeCast_1ab_ab_apply _ _ n e).trans ?_
  refine extractStridedSlice_apply _ X _ (ix3 (0 : Fin 1) n e) (ix3 h n e) fun a => ?_
  match a with
  | ⟨0, _⟩ => show h.val = h.val + 0; omega
  | ⟨1, _⟩ => show n.val = 0 + n.val; omega
  | ⟨2, _⟩ => show e.val = 0 + e.val; omega

/-- The output projection is the library's plain product. -/
theorem dotM_eq : dot_S1024x768_S768x768_S1024x768_1_0_0_1_n_n = DotDims.plain 1024 768 768 := rfl

/-- The heads side by side at (n, c): head c / 64 at lane c % 64. -/
theorem sidebyside_apply {α : Type} (g : Fin 12 → (S1024x64.Idx → α)) (n : Fin 1024) (c : Fin 768) :
    shapeCast S1024x768 (transpose S1024x12x64 [1, 0, 2]
        (concatenate S12x1024x64 0
          (List.ofFn fun h : Fin 12 => (⟨S1x1024x64, shapeCast S1x1024x64 (g h) shapeCasts_S1024x64_S1x1024x64⟩ : (s : Shape) × (s.Idx → α)))
          (stack_fact _))
        transposes_S12x1024x64_p1_0_2_S1024x12x64) shapeCasts_S1024x12x64_S1024x768 (ix2 n c)
      = g (Cert.Attn.headOf c) (ix2 n (Cert.Attn.laneOf c)) := by
  refine (shapeCast_apply _ _ (ix2 n c) (ix3 n (Cert.Attn.headOf c) (Cert.Attn.laneOf c)) ?_).trans ?_
  · rw [Shape.rowMajor_val_three, Shape.rowMajor_val_two]
    show (n.val * 12 + c.val / 64) * 64 + c.val % 64 = n.val * 768 + c.val
    have := c.isLt
    omega
  refine (transpose_apply _ _ _ (ix3 n (Cert.Attn.headOf c) (Cert.Attn.laneOf c)) (ix3 (Cert.Attn.headOf c) n (Cert.Attn.laneOf c))
    (fun b => match b with | ⟨0, _⟩ => rfl | ⟨1, _⟩ => rfl | ⟨2, _⟩ => rfl)).trans ?_
  refine (concatenate_ofFn_unit_apply (t := S12x1024x64) (s₁ := S1x1024x64) (0 : Fin 3)
    (fun h : Fin 12 => shapeCast S1x1024x64 (g h) shapeCasts_S1024x64_S1x1024x64) (stack_fact _) rfl rfl
    (ix3 (Cert.Attn.headOf c) n (Cert.Attn.laneOf c)) (Cert.Attn.headOf c) rfl
    (ix3 (0 : Fin 1) n (Cert.Attn.laneOf c)) (fun b hb => ?_)).trans ?_
  · match b with
    | ⟨0, _⟩ => exact absurd rfl hb
    | ⟨1, _⟩ => rfl
    | ⟨2, _⟩ => rfl
  exact shapeCast_ab_1ab_apply _ _ (0 : Fin 1) n (Cert.Attn.laneOf c)

/-- The final projection at (0, n, f). -/
theorem finalVec_apply (hd : Fin 12 → FVec Ideal S1024x64 .bf16) (wm : Vec Ideal S768x768 .bf16) (bias : Vec Ideal S1x768 .f32)
    (n : Fin 1024) (f : Fin 768) :
    finalVec (F := Ideal) hd wm bias (ix3 (0 : Fin 1) n f)
      = (∑ c : Fin 768, hd (Cert.Attn.headOf c) (ix2 n (Cert.Attn.laneOf c)) * wm (ix2 c f)) + bias (ix2 (0 : Fin 1) f) := by
  unfold finalVec
  dsimp only
  refine (shapeCast_ab_1ab_apply _ _ (0 : Fin 1) n f).trans ?_
  show _ + _ = _
  refine congrArg₂ (· + ·) ?_ ?_
  · rw [dotM_eq]
    refine (PlainDot.matmul_zero_apply none _ _ n f).trans ?_
    refine Finset.sum_congr rfl fun c _ => congrArg₂ (· * ·) (sidebyside_apply hd n c) ?_
    exact congrFun (shapeCast_self wm _) _
  · refine (broadcastTo_1b_ab_apply _ _ n f).trans ?_
    exact congrFun (shapeCast_self bias _) _

end Cert.Attn.Kernel

end
-- ==== Proof.QkvRead.lean ====
/-
  The joint projection of the gated tokens, and its split into the queries, keys and values of the twelve heads,
  as the first program computes them, read at an index on the extended reals.

  The projection is a plain matrix product into the zero accumulator: at (n, j) it is the sum over the 768 coordinates d
  of (token(n, d) · gate(n)) · weight(d, j). The queries, keys and values are the column ranges 0.., 768.., 1536.. of it
  (the queries also times the scale), each range of 768 columns seen as twelve heads of 64 lanes and the head axis moved
  in front: at (h, n, e) it is the projection at (n, t·768 + h·64 + e).
-/
import proofs.«144339_j35923106463893_2_alg».proof.Proof.Spec
import proofs.«144339_j35923106463893_2_alg».proof.Proof.LibPlainDot
import proofs.«144339_j35923106463893_2_alg».proof.Proof.LibKeepdims
import proofs.«144339_j35923106463893_2_alg».proof.Proof.Gen.KernelIdeal.Skeleton
import Idealize.ShloMosaic.Lib.ValueLayout

open scoped BigOperators

namespace Cert.Attn.Kernel

open Idealize.ShloMosaic Idealize.ShloMosaic.ValueIdx
open Cert.KernelIdeal Cert.KernelIdeal.Gen

/-- Column h·64 + e of a range of 768 columns: lane e of head h. -/
def laneCol (h : Fin 12) (e : Fin 64) : Fin 768 :=
  ⟨h.val * 64 + e.val, by have := h.isLt; have := e.isLt; omega⟩

/-- A 1024×768 array seen as 1024×12×64 with the head axis moved in front reads, at (h, n, e), the array at
    (n, h·64 + e): the two indices have the same row-major position. -/
theorem heads_apply {α : Type} (Y : (⟨2, ![1024, 768]⟩ : Shape).Idx → α)
    (hc : (⟨2, ![1024, 768]⟩ : Shape).ShapeCasts ⟨3, ![1024, 12, 64]⟩)
    (ht : (⟨3, ![1024, 12, 64]⟩ : Shape).Transposes [1, 0, 2] ⟨3, ![12, 1024, 64]⟩)
    (h : Fin 12) (n : Fin 1024) (e : Fin 64) :
    transpose ⟨3, ![12, 1024, 64]⟩ [1, 0, 2] (shapeCast ⟨3, ![1024, 12, 64]⟩ Y hc) ht (ix3 h n e)
      = Y (ix2 n (laneCol h e)) := by
  refine (transpose_apply [1, 0, 2] (shapeCast ⟨3, ![1024, 12, 64]⟩ Y hc) ht (ix3 h n e) (ix3 n h e)
    fun c => match c with | ⟨0, _⟩ => rfl | ⟨1, _⟩ => rfl | ⟨2, _⟩ => rfl).trans ?_
  exact shapeCast_apply Y hc (ix3 n h e) (ix2 n (laneCol h e)) (by
    rw [Shape.rowMajor_val_two, Shape.rowMajor_val_three]
    show n.val * 768 + (h.val * 64 + e.val) = (n.val * 12 + h.val) * 64 + e.val
    omega)

/-- The position of column (t, h, e) of the joint projection. -/
theorem col_val (t : Fin 3) (h : Fin 12) (e : Fin 64) :
    (Cert.Attn.col t h e).val = t.val * 768 + h.val * 64 + e.val := rfl

/-- The joint projection at (n, j): Σ_d (token(n, d) · gate(n)) · weight(d, j). -/
theorem pay2_apply (l0 : Vec Ideal S1x1024x768 .bf16) (l1 : Vec Ideal S1x1024x1 .f32) (l2 : Vec Ideal S768x2304 .bf16)
    (b : Fin 8) (n : Fin 1024) (j : Fin 2304) :
    k0_pay2 (F := Ideal) l0 l1 l2 (ix2 n j)
      = Cert.Attn.qkvK (fun _ n d => l0 (ix3 (0 : Fin 1) n d)) (fun _ n => l1 (ix3 (0 : Fin 1) n (0 : Fin 1)))
          (fun d j => l2 (ix2 d j)) b n j := by
  unfold k0_pay2
  refine (PlainDot.matmul_zero_apply (M := 1024) (K := 768) (N := 2304) none _ _ n j).trans ?_
  unfold Cert.Attn.qkvK
  refine Finset.sum_congr rfl fun d _ => ?_
  refine congrArg₂ (fun (a c : EReal) => a * c) ?_
    (congrFun (shapeCast_self l2 shapeCasts_S768x2304_S768x2304) (ix2 d j))
  refine congrArg₂ (fun (a c : EReal) => a * c)
    (shapeCast_1ab_ab_apply l0 shapeCasts_S1x1024x768_S1024x768 n d) ?_
  exact (Keepdims.broadcastTo_a1_ab_apply _ broadcasts_S1024x1_S1024x768 n d).trans
    (shapeCast_1ab_ab_apply l1 shapeCasts_S1x1024x1_S1024x1 n (0 : Fin 1))

/-- The scaled queries at (h, n, e): the joint projection at (n, h·64 + e), times the scale. -/
theorem pay3_apply (l0 : Vec Ideal S1x1024x768 .bf16) (l1 : Vec Ideal S1x1024x1 .f32) (l2 : Vec Ideal S768x2304 .bf16)
    (b : Fin 8) (h : Fin 12) (n : Fin 1024) (e : Fin 64) :
    k0_pay3 (F := Ideal) l0 l1 l2 (ix3 h n e)
      = Cert.Attn.qK (fun _ n d => l0 (ix3 (0 : Fin 1) n d)) (fun _ n => l1 (ix3 (0 : Fin 1) n (0 : Fin 1)))
          (fun d j => l2 (ix2 d j)) b h n e := by
  unfold k0_pay3
  refine (heads_apply _ shapeCasts_S1024x768_S1024x12x64 transposes_S1024x12x64_p1_0_2_S12x1024x64 h n e).trans ?_
  unfold Cert.Attn.qK
  refine congrArg (fun a : EReal => a * Cert.Attn.scale) ?_
  exact (slice2_axis1_apply 0 (k0_pay2 (F := Ideal) l0 l1 l2) slices_S1024x2304_o0_0_S1024x768 n (laneCol h e)
      (Cert.Attn.col 0 h e) (by
        rw [col_val]
        show 0 * 768 + h.val * 64 + e.val = 0 + (h.val * 64 + e.val)
        omega)).trans
    (pay2_apply l0 l1 l2 b n (Cert.Attn.col 0 h e))

/-- The keys at (h, n, e): the joint projection at (n, 768 + h·64 + e). -/
theorem pay4_apply (l0 : Vec Ideal S1x1024x768 .bf16) (l1 : Vec Ideal S1x1024x1 .f32) (l2 : Vec Ideal S768x2304 .bf16)
    (b : Fin 8) (h : Fin 12) (n : Fin 1024) (e : Fin 64) :
    k0_pay4 (F := Ideal) l0 l1 l2 (ix3 h n e)
      = Cert.Attn.kK (fun _ n d => l0 (ix3 (0 : Fin 1) n d)) (fun _ n => l1 (ix3 (0 : Fin 1) n (0 : Fin 1)))
          (fun d j => l2 (ix2 d j)) b h n e := by
  unfold k0_pay4
  refine (heads_apply _ shapeCasts_S1024x768_S1024x12x64 transposes_S1024x12x64_p1_0_2_S12x1024x64 h n e).trans ?_
  exact (slice2_axis1_apply 768 (k0_pay2 (F := Ideal) l0 l1 l2) slices_S1024x2304_o0_768_S1024x768 n (laneCol h e)
      (Cert.Attn.col 1 h e) (by
        rw [col_val]
        show 1 * 768 + h.val * 64 + e.val = 768 + (h.val * 64 + e.val)
        omega)).trans
    (pay2_apply l0 l1 l2 b n (Cert.Attn.col 1 h e))

/-- The values at (h, n, e): the joint projection at (n, 1536 + h·64 + e). -/
theorem pay5_apply (l0 : Vec Ideal S1x1024x768 .bf16) (l1 : Vec Ideal S1x1024x1 .f32) (l2 : Vec Ideal S768x2304 .bf16)
    (b : Fin 8) (h : Fin 12) (n : Fin 1024) (e : Fin 64) :
    k0_pay5 (F := Ideal) l0 l1 l2 (ix3 h n e)
      = Cert.Attn.vK (fun _ n d => l0 (ix3 (0 : Fin 1) n d)) (fun _ n => l1 (ix3 (0 : Fin 1) n (0 : Fin 1)))
          (fun d j => l2 (ix2 d j)) b h n e := by
  unfold k0_pay5
  refine (heads_apply _ shapeCasts_S1024x768_S1024x12x64 transposes_S1024x12x64_p1_0_2_S12x1024x64 h n e).trans ?_
  exact (slice2_axis1_apply 1536 (k0_pay2 (F := Ideal) l0 l1 l2) slices_S1024x2304_o0_1536_S1024x768 n (laneCol h e)
      (Cert.Attn.col 2 h e) (by
        rw [col_val]
        show 2 * 768 + h.val * 64 + e.val = 1536 + (h.val * 64 + e.val)
        omega)).trans
    (pay2_apply l0 l1 l2 b n (Cert.Attn.col 2 h e))

end Cert.Attn.Kernel
-- ==== Proof.Body.lean ====
/-
  What the body leaves in the output block, at an index: the layer's first arrangement on the blocks it loaded.

  The body stores one value, covering the whole 1×1024×768 output block: the twelve heads through the output
  projection. At (0, n, f) that is Σ_c head_{c/64}(n, c % 64) · Wm(c, f) + bias(f); head h is the one-head function of
  slab h of the query, key and value stacks, and the stacks at (h, n, e) are the joint projection of the gated token
  at column t·768 + 64h + e (the query times 1/8). So the block holds the first arrangement of the layer, computed from
  the loaded blocks (one batch: the batch coordinate of the specification's functions is not used).
-/
import proofs.«144339_j35923106463893_2_alg».proof.Proof.Gen.KernelIdeal.Frame
import proofs.«144339_j35923106463893_2_alg».proof.Proof.HeadsRead
import proofs.«144339_j35923106463893_2_alg».proof.Proof.QkvRead

noncomputable section

open scoped BigOperators

namespace Cert.Attn.Kernel

open Idealize.ShloMosaic Idealize.ShloMosaic.ValueIdx Cert.KernelIdeal Cert.KernelIdeal.Gen

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output block after the body, at (0, n, f). -/
theorem out_apply (x0 : Vec Ideal S1x1024x768 .bf16) (x1 : Vec Ideal S1x1024x1 .f32) (x2 : Vec Ideal S768x2304 .bf16)
    (x3 : Vec Ideal S768x768 .bf16) (x4 : Vec Ideal S1x768 .f32) (b : Fin 8) (n : Fin 1024) (f : Fin 768) :
    out0_5 (F := Ideal) x0 x1 x2 x3 x4 (ix3 (0 : Fin 1) n f)
      = Cert.Attn.outK (fun _ n d => x0 (ix3 (0 : Fin 1) n d)) (fun _ n => x1 (ix3 (0 : Fin 1) n (0 : Fin 1))) (fun d j => x2 (ix2 d j)) (fun c f => x3 (ix2 c f)) (fun f => x4 (ix2 (0 : Fin 1) f)) b n f := by
  unfold out0_5
  rw [View.canon_unit_zero zeros3]
  simp only [View.ld_unit_zero (S := S1x1024x768) zeros3, View.ld_unit_zero (S := S1x1024x1) zeros3,
    View.ld_unit_zero (S := S768x2304) zeros2, View.ld_unit_zero (S := S768x768) zeros2, View.ld_unit_zero (S := S1x768) zeros2]
  refine (congrFun (payload_eq x0 x1 x2 x3 x4) _).trans ?_
  refine (finalVec_apply _ x3 x4 n f).trans ?_
  unfold Cert.Attn.outK
  refine congrArg₂ (· + ·) (Finset.sum_congr rfl fun c _ => congrArg₂ (· * ·) ?_ rfl) rfl
  refine (headVec_apply _ _ _ n (Cert.Attn.laneOf c)).trans ?_
  have hq : (fun n' e' => slab (Cert.Attn.headOf c) (k0_pay3 x0 x1 x2) (ix2 n' e'))
      = Cert.Attn.qK (fun _ n d => x0 (ix3 (0 : Fin 1) n d)) (fun _ n => x1 (ix3 (0 : Fin 1) n (0 : Fin 1))) (fun d j => x2 (ix2 d j)) b (Cert.Attn.headOf c) :=
    funext fun n' => funext fun e' => (slab_apply _ _ n' e').trans (pay3_apply x0 x1 x2 b (Cert.Attn.headOf c) n' e')
  have hk : (fun n' e' => slab (Cert.Attn.headOf c) (k0_pay4 x0 x1 x2) (ix2 n' e'))
      = Cert.Attn.kK (fun _ n d => x0 (ix3 (0 : Fin 1) n d)) (fun _ n => x1 (ix3 (0 : Fin 1) n (0 : Fin 1))) (fun d j => x2 (ix2 d j)) b (Cert.Attn.headOf c) :=
    funext fun n' => funext fun e' => (slab_apply _ _ n' e').trans (pay4_apply x0 x1 x2 b (Cert.Attn.headOf c) n' e')
  have hv : (fun n' e' => slab (Cert.Attn.headOf c) (k0_pay5 x0 x1 x2) (ix2 n' e'))
      = Cert.Attn.vK (fun _ n d => x0 (ix3 (0 : Fin 1) n d)) (fun _ n => x1 (ix3 (0 : Fin 1) n (0 : Fin 1))) (fun d j => x2 (ix2 d j)) b (Cert.Attn.headOf c) :=
    funext fun n' => funext fun e' => (slab_apply _ _ n' e').trans (pay5_apply x0 x1 x2 b (Cert.Attn.headOf c) n' e')
  rw [hq, hk, hv]

end Cert.Attn.Kernel

end
-- ==== Proof.Blocks.lean ====
/-
  From blocks to the array. The kernel runs over a grid of eight points; at point t it is handed block t (one batch) of
  the tokens and of the gate, and the whole of the two projections and of the bias, and writes back block t of the
  output. The body's result at a point is the layer's first arrangement of the entries of its blocks; those entries
  are the entries of the five arguments at batch t (the staged arrays are the arguments, reshaped by a unit axis or
  converted by a conversion that is the identity on the extended reals), and the layer at batch t reads the tokens
  and the gate at batch t only. The eight blocks tile the output, so after the run the output array is the layer's
  first arrangement of the five argument arrays, index by index.
-/
import proofs.«144339_j35923106463893_2_alg».proof.Proof.Gen.KernelIdeal.Value
import proofs.«144339_j35923106463893_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Attn.Blocks

open Idealize.ShloMosaic Idealize.ShloMosaic.ValueIdx Cert.KernelIdeal Cert.KernelIdeal.Gen
open Idealize.ShloMosaic.TcCoe Idealize.SL.Sem
open Idealize.ShloMosaic.Pipeline (Dat)

variable (m : (ℓ : Loc nD τ sig) → Buf (Elt Ideal) ℓ)

/-! ## The layer at one batch -/

/-- The layer's first arrangement at batch b reads the tokens and the gate at batch b only: two families of
    arguments that agree there give the same value. -/
theorem outK_congr (x x' : Fin 8 → Fin 1024 → Fin 768 → EReal) (w w' : Fin 8 → Fin 1024 → EReal)
    (Wq Wq' : Fin 768 → Fin 2304 → EReal) (Wm Wm' : Fin 768 → Fin 768 → EReal) (bm bm' : Fin 768 → EReal)
    (b b' : Fin 8) (hx : ∀ n d, x b n d = x' b' n d) (hw : ∀ n, w b n = w' b' n)
    (hq : ∀ d j, Wq d j = Wq' d j) (hm : ∀ c f, Wm c f = Wm' c f) (hb : ∀ f, bm f = bm' f)
    (n : Fin 1024) (f : Fin 768) :
    Cert.Attn.outK x w Wq Wm bm b n f = Cert.Attn.outK x' w' Wq' Wm' bm' b' n f := by
  obtain rfl : Wq = Wq' := funext fun d => funext fun j => hq d j
  obtain rfl : Wm = Wm' := funext fun c => funext fun f => hm c f
  obtain rfl : bm = bm' := funext hb
  have hqkv : Cert.Attn.qkvK x w Wq b = Cert.Attn.qkvK x' w' Wq b' := by
    funext n j
    unfold Cert.Attn.qkvK
    simp only [hx, hw]
  unfold Cert.Attn.outK Cert.Attn.qK Cert.Attn.kK Cert.Attn.vK
  rw [hqkv]

/-- The layer's first arrangement as one array of the five argument arrays. -/
def GK (X0 : S8x1024x768.Idx → EReal) (X1 : S8x1024.Idx → EReal) (X2 : S768x2304.Idx → EReal) (X3 : S768x768.Idx → EReal) (X4 : S768.Idx → EReal) : S8x1024x768.Idx → EReal :=
  fun i => Cert.Attn.outK (fun b n d => X0 (ix3 b n d)) (fun b n => X1 (ix2 b n)) (fun d j => X2 (ix2 d j)) (fun c f => X3 (ix2 c f)) (fun f => X4 (ix1 f)) (i 0) (i 1) (i 2)

/-! ## What the region finds in the five staged arrays -/

/-- The staged tokens are the argument tokens (the conversion to the narrower format is the identity on the extended reals). -/
theorem V2 (c : Dev nD) : (V m c main_v2 : S8x1024x768.Idx → EReal) = (m ((c : Thread nD τ).loc main_arg0) : S8x1024x768.Idx → EReal) := by
  dsimp only [Gen.V, Gen.hostOps0]; after_results; rfl

/-- The staged joint projection is the argument's. -/
theorem V3 (c : Dev nD) : (V m c main_v3 : S768x2304.Idx → EReal) = (m ((c : Thread nD τ).loc main_arg2) : S768x2304.Idx → EReal) := by
  dsimp only [Gen.V, Gen.hostOps0]; after_results; rfl

/-- The staged output projection is the argument's. -/
theorem V4 (c : Dev nD) : (V m c main_v4 : S768x768.Idx → EReal) = (m ((c : Thread nD τ).loc main_arg3) : S768x768.Idx → EReal) := by
  dsimp only [Gen.V, Gen.hostOps0]; after_results; rfl

/-- The staged gate is the argument gate with a trailing unit axis. -/
theorem V0 (c : Dev nD) : (V m c main_v0 : S8x1024x1.Idx → EReal) = shapeCast S8x1024x1 (m ((c : Thread nD τ).loc main_arg1) : S8x1024.Idx → EReal) shapeCasts_S8x1024_S8x1024x1 := by
  dsimp only [Gen.V, Gen.hostOps0]; after_results; rfl

/-- The staged bias is the argument bias with a leading unit axis. -/
theorem V1 (c : Dev nD) : (V m c main_v1 : S1x768.Idx → EReal) = shapeCast S1x768 (m ((c : Thread nD τ).loc main_arg4) : S768.Idx → EReal) shapeCasts_S768_S1x768 := by
  dsimp only [Gen.V, Gen.hostOps0]; after_results; rfl

/-! ## The six windows' block indices over the grid -/

/-- At grid point t the token, gate and output windows are at block (t, 0, 0), the three whole-array windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## Each input block as entries of its argument -/

/-- The token block at point t is batch t of the tokens. -/
theorem blk0_apply (c : Dev nD) (t : Fin cfg0.N) (b : Fin 8) (hb : b.val = t.val) (n : Fin 1024) (d : Fin 768) :
    (iblk m c 0 t : Vec Ideal S1x1024x768 .bf16) (ix3 (0 : Fin 1) n d)
      = (m ((c : Thread nD τ).loc main_arg0) : S8x1024x768.Idx → EReal) (ix3 b n d) := by
  obtain ⟨e0, e1, e2, -⟩ := idx_facts t
  unfold iblk
  rw [View.read_apply]
  show (V m c main_v2 : S8x1024x768.Idx → EReal) _ = _
  rw [V2]
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * n.val = n.val; omega
  | ⟨2, _⟩ => show win0_0.index t (2 : Fin 3) * 768 + 1 * d.val = d.val; omega

/-- The gate block at point t is batch t of the gate. -/
theorem blk1_apply (c : Dev nD) (t : Fin cfg0.N) (b : Fin 8) (hb : b.val = t.val) (n : Fin 1024) :
    (iblk m c 1 t : Vec Ideal S1x1024x1 .f32) (ix3 (0 : Fin 1) n (0 : Fin 1))
      = (m ((c : Thread nD τ).loc main_arg1) : S8x1024.Idx → EReal) (ix2 b n) := by
  obtain ⟨-, -, -, e0, e1, e2, -⟩ := idx_facts t
  unfold iblk
  rw [View.read_apply]
  show (V m c main_v0 : S8x1024x1.Idx → EReal) _ = _
  rw [V0]
  refine shapeCast_apply _ _ _ _ ?_
  show (S8x1024.rowMajor (ix2 b n)).val = (S8x1024x1.rowMajor (((cfg0.win 1).blk t).view.emb (ix3 (0 : Fin 1) n (0 : Fin 1)))).val
  rw [Shape.rowMajor_val_two, Shape.rowMajor_val_three]
  show b.val * 1024 + n.val = ((win0_1.index t (0 : Fin 3) * 1 + 1 * 0) * 1024 + (win0_1.index t (1 : Fin 3) * 1024 + 1 * n.val)) * 1 + (win0_1.index t (2 : Fin 3) * 1 + 1 * 0)
  omega

/-- The joint projection's one block is the whole array. -/
theorem blk2_apply (c : Dev nD) (t : Fin cfg0.N) (d : Fin 768) (j : Fin 2304) :
    (iblk m c 2 t : Vec Ideal S768x2304 .bf16) (ix2 d j)
      = (m ((c : Thread nD τ).loc main_arg2) : S768x2304.Idx → EReal) (ix2 d j) := by
  obtain ⟨-, -, -, -, -, -, e0, e1, -⟩ := idx_facts t
  unfold iblk
  rw [View.read_apply]
  show (V m c main_v3 : S768x2304.Idx → EReal) _ = _
  rw [V3]
  refine congrArg _ (funext fun a => Fin.ext ?_)
  match a with
  | ⟨0, _⟩ => show win0_2.index t (0 : Fin 2) * 768 + 1 * d.val = d.val; omega
  | ⟨1, _⟩ => show win0_2.index t (1 : Fin 2) * 2304 + 1 * j.val = j.val; omega

/-- The output projection's one block is the whole array. -/
theorem blk3_apply (c : Dev nD) (t : Fin cfg0.N) (k : Fin 768) (f : Fin 768) :
    (iblk m c 3 t : Vec Ideal S768x768 .bf16) (ix2 k f)
      = (m ((c : Thread nD τ).loc main_arg3) : S768x768.Idx → EReal) (ix2 k f) := by
  obtain ⟨-, -, -, -, -, -, -, -, e0, e1, -⟩ := idx_facts t
  unfold iblk
  rw [View.read_apply]
  show (V m c main_v4 : S768x768.Idx → EReal) _ = _
  rw [V4]
  refine congrArg _ (funext fun a => Fin.ext ?_)
  match a with
  | ⟨0, _⟩ => show win0_3.index t (0 : Fin 2) * 768 + 1 * k.val = k.val; omega
  | ⟨1, _⟩ => show win0_3.index t (1 : Fin 2) * 768 + 1 * f.val = f.val; omega

/-- The bias's one block is the whole bias, as one row. -/
theorem blk4_apply (c : Dev nD) (t : Fin cfg0.N) (f : Fin 768) :
    (iblk m c 4 t : Vec Ideal S1x768 .f32) (ix2 (0 : Fin 1) f)
      = (m ((c : Thread nD τ).loc main_arg4) : S768.Idx → EReal) (ix1 f) := by
  obtain ⟨-, -, -, -, -, -, -, -, -, -, e0, e1, -⟩ := idx_facts t
  unfold iblk
  rw [View.read_apply]
  show (V m c main_v1 : S1x768.Idx → EReal) _ = _
  rw [V1]
  refine shapeCast_apply _ _ _ _ ?_
  show (S768.rowMajor (ix1 f)).val = (S1x768.rowMajor (((cfg0.win 4).blk t).view.emb (ix2 (0 : Fin 1) f))).val
  rw [Shape.rowMajor_val_one, Shape.rowMajor_val_two]
  show f.val = (win0_4.index t (0 : Fin 2) * 1 + 1 * 0) * 768 + (win0_4.index t (1 : Fin 2) * 768 + 1 * f.val)
  omega

/-! ## What a grid point writes back -/

/-- The body's result on the blocks at point t, at an entry of the block, is the layer at the array index with batch
    coordinate t and the same two inner coordinates. -/
theorem out_at
    (hout : ∀ (x0 : Vec Ideal S1x1024x768 .bf16) (x1 : Vec Ideal S1x1024x1 .f32) (x2 : Vec Ideal S768x2304 .bf16) (x3 : Vec Ideal S768x768 .bf16) (x4 : Vec Ideal S1x768 .f32) (b : Fin 8) (n : Fin 1024) (f : Fin 768),
      out0_5 (F := Ideal) x0 x1 x2 x3 x4 (ix3 (0 : Fin 1) n f)
        = Cert.Attn.outK (fun _ n d => x0 (ix3 (0 : Fin 1) n d)) (fun _ n => x1 (ix3 (0 : Fin 1) n (0 : Fin 1))) (fun d j => x2 (ix2 d j)) (fun c f => x3 (ix2 c f)) (fun f => x4 (ix2 (0 : Fin 1) f)) b n f)
    (c : Dev nD) (t : Fin cfg0.N) (y : S1x1024x768.Idx) (i : S8x1024x768.Idx)
    (h0 : (i 0).val = t.val) (h1 : (i 1).val = (y 1).val) (h2 : (i 2).val = (y 2).val) :
    out0_5 (F := Ideal) (iblk m c 0 t) (iblk m c 1 t) (iblk m c 2 t) (iblk m c 3 t) (iblk m c 4 t) y
      = (GK (m ((c : Thread nD τ).loc main_arg0)) (m ((c : Thread nD τ).loc main_arg1)) (m ((c : Thread nD τ).loc main_arg2)) (m ((c : Thread nD τ).loc main_arg3)) (m ((c : Thread nD τ).loc main_arg4))) i := by
  obtain ⟨b, hb⟩ : ∃ b : Fin 8, b = i 0 := ⟨i 0, rfl⟩
  obtain ⟨n, hn⟩ : ∃ n : Fin 1024, n = i 1 := ⟨i 1, rfl⟩
  obtain ⟨f, hf⟩ : ∃ f : Fin 768, f = i 2 := ⟨i 2, rfl⟩
  have hbt : b.val = t.val := by rw [hb]; exact h0
  have hy : y = ix3 (0 : Fin 1) n f := by
    funext a
    match a with
    | ⟨0, _⟩ => exact Fin.ext (by show (y 0).val = 0; have : (y 0).val < 1 := (y 0).isLt; omega)
    | ⟨1, _⟩ => exact Fin.ext (by rw [hn]; exact h1.symm)
    | ⟨2, _⟩ => exact Fin.ext (by rw [hf]; exact h2.symm)
  have hgk : (GK (m ((c : Thread nD τ).loc main_arg0)) (m ((c : Thread nD τ).loc main_arg1)) (m ((c : Thread nD τ).loc main_arg2)) (m ((c : Thread nD τ).loc main_arg3)) (m ((c : Thread nD τ).loc main_arg4))) i
      = Cert.Attn.outK (fun b n d => (m ((c : Thread nD τ).loc main_arg0) : S8x1024x768.Idx → EReal) (ix3 b n d))
          (fun b n => (m ((c : Thread nD τ).loc main_arg1) : S8x1024.Idx → EReal) (ix2 b n))
          (fun d j => (m ((c : Thread nD τ).loc main_arg2) : S768x2304.Idx → EReal) (ix2 d j))
          (fun k f => (m ((c : Thread nD τ).loc main_arg3) : S768x768.Idx → EReal) (ix2 k f))
          (fun f => (m ((c : Thread nD τ).loc main_arg4) : S768.Idx → EReal) (ix1 f)) b n f := by
    rw [hb, hn, hf]; rfl
  rw [hy, hgk]
  exact (hout (iblk m c 0 t) (iblk m c 1 t) (iblk m c 2 t) (iblk m c 3 t) (iblk m c 4 t) b n f).trans
    (outK_congr _ _ _ _ _ _ _ _ _ _ b b (fun n d => blk0_apply m c t b hbt n d)
      (fun n => blk1_apply m c t b hbt n) (fun d j => blk2_apply m c t d j) (fun k f => blk3_apply m c t k f)
      (fun f => blk4_apply m c t f) n f)

/-- What point t writes back is block t of the layer, as one array of the arguments. -/
theorem flushed_eq
    (hout : ∀ (x0 : Vec Ideal S1x1024x768 .bf16) (x1 : Vec Ideal S1x1024x1 .f32) (x2 : Vec Ideal S768x2304 .bf16) (x3 : Vec Ideal S768x768 .bf16) (x4 : Vec Ideal S1x768 .f32) (b : Fin 8) (n : Fin 1024) (f : Fin 768),
      out0_5 (F := Ideal) x0 x1 x2 x3 x4 (ix3 (0 : Fin 1) n f)
        = Cert.Attn.outK (fun _ n d => x0 (ix3 (0 : Fin 1) n d)) (fun _ n => x1 (ix3 (0 : Fin 1) n (0 : Fin 1))) (fun d j => x2 (ix2 d j)) (fun c f => x3 (ix2 c f)) (fun f => x4 (ix2 (0 : Fin 1) f)) b n f)
    (c : Dev nD) (t : Fin cfg0.N) :
    (dats m 0 c).flushed 5 t = ((cfg0.win 5).blk t).view.read (Elt Ideal) (GK (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  obtain ⟨-, -, -, -, -, -, -, -, -, -, -, -, e0, e1, e2⟩ := idx_facts t
  funext j
  refine out_at m hout c t ((cfg0.win 5).xinj (grid0.coords t) j) (((cfg0.win 5).blk t).view.emb j) ?_ ?_ ?_
  · show win0_5.index t (0 : Fin 3) * 1 + 1 * (j 0).val = t.val
    have hj : (j 0).val < 1 := (j 0).isLt
    omega
  · show win0_5.index t (1 : Fin 3) * 1024 + 1 * (j 1).val = (j 1).val
    omega
  · show win0_5.index t (2 : Fin 3) * 768 + 1 * (j 2).val = (j 2).val
    omega

/-! ## The blocks cover the array -/

/-- An index of the array is in point t's block iff each coordinate is in the block's range on its axis. -/
theorem mem_blk (t : Fin cfg0.N) (i : S8x1024x768.Idx) :
    i ∈ ((cfg0.win 5).blk t).view.set ↔ ∀ a : Fin 3, win0_5.index t a * S1x1024x768.size a ≤ (i a).val ∧ (i a).val < win0_5.index t a * S1x1024x768.size a + S1x1024x768.size a := by
  show i ∈ ((View.whole main_v5).slice (win0_5.rect t)).set ↔ _
  rw [View.set_slice_whole, Rect.mem_set_unit]
  exact Iff.rfl

/-- Every index of the array is in the block of the point numbered by its batch coordinate. -/
theorem cover (i : S8x1024x768.Idx) :
    ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 768 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 768 ≤ (i 2).val ∧ (i 2).val < win0_5.index t (2 : Fin 3) * 768 + 768; omega

/-! ## The array after the run -/

/-- The output array after the run is the layer's first arrangement of the five argument arrays. -/
theorem final
    (hout : ∀ (x0 : Vec Ideal S1x1024x768 .bf16) (x1 : Vec Ideal S1x1024x1 .f32) (x2 : Vec Ideal S768x2304 .bf16) (x3 : Vec Ideal S768x768 .bf16) (x4 : Vec Ideal S1x768 .f32) (b : Fin 8) (n : Fin 1024) (f : Fin 768),
      out0_5 (F := Ideal) x0 x1 x2 x3 x4 (ix3 (0 : Fin 1) n f)
        = Cert.Attn.outK (fun _ n d => x0 (ix3 (0 : Fin 1) n d)) (fun _ n => x1 (ix3 (0 : Fin 1) n (0 : Fin 1))) (fun d j => x2 (ix2 d j)) (fun c f => x3 (ix2 c f)) (fun f => x4 (ix2 (0 : Fin 1) f)) b n f)
    (m : (ℓ : Loc nD τ sig) → Buf (Elt Ideal) ℓ) (c : Dev nD) :
    (dats m 0 c).arrAt 5 cfg0.N
      = GK (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (GK (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m hout c t) cover

end Cert.Attn.Blocks

end
-- ==== Proof.RefRead.lean ====
/-
  The reference program, read one operation at a time at explicit coordinates, is the attention layer in its second
  arrangement ("gate last, normalise first"): the gate multiplies the projected row, the scale 1/8 multiplies the
  score, each exponential is divided by the sum of its row before it weighs a value.

  Only index bookkeeping happens here: every reshape, transpose, slice and broadcast is a map between index sets, and
  each such map is computed at an index built from its coordinates (row-major position arithmetic with the literal
  extents; the column t·768 + h·64 + e of the joint projection is part t, head h, lane e, and column c of the
  concatenated heads is lane c mod 64 of head c / 64). The one operation that folds an axis with a maximum is read as
  the set fold over that axis, which is the running maximum of the row. No algebraic law of the extended reals is
  used, and no finiteness.
-/
import proofs.«144339_j35923106463893_2_alg».proof.Proof.Gen.ReferenceIdeal.Read
import proofs.«144339_j35923106463893_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Attn.RefRead

open Idealize.ShloMosaic Idealize.ShloMosaic.ValueIdx Cert.ReferenceIdeal Cert.ReferenceIdeal.Gen Cert.ReferenceIdeal.Read

section

variable (X0 : (⟨S8x1024x768, .f32⟩ : BufTy).Contents (Elt Ideal)) (X1 : (⟨S8x1024, .f32⟩ : BufTy).Contents (Elt Ideal))
  (X2 : (⟨S768x2304, .f32⟩ : BufTy).Contents (Elt Ideal)) (X3 : (⟨S768x768, .f32⟩ : BufTy).Contents (Elt Ideal))
  (X4 : (⟨S768, .f32⟩ : BufTy).Contents (Elt Ideal))

/-- The tokens by coordinates. -/
abbrev xs : Fin 8 → Fin 1024 → Fin 768 → EReal := fun b n d => X0 (ix3 b n d)
/-- The gate by coordinates. -/
abbrev ws : Fin 8 → Fin 1024 → EReal := fun b n => X1 (ix2 b n)
/-- The joint projection by coordinates. -/
abbrev Wqs : Fin 768 → Fin 2304 → EReal := fun d j => X2 (ix2 d j)

/-! ## The gated joint projection (the first four operations) -/

/-- The gated joint projection, read at (b, n, j). -/
theorem v3_apply (b : Fin 8) (n : Fin 1024) (j : Fin 2304) :
    val_main_v3 (F := Ideal) X0 X1 X2 (ix3 b n j) = Cert.Attn.qkvR (xs X0) (ws X1) (Wqs X2) b n j := by
  rw [val_main_v3_apply, val_main_v2_apply, val_main_v1_apply, val_main_v0_apply]
  have e1 : idx_main_v1 (idx_main_v2 (ix3 b n j)) = ix2 b n := by
    funext a; match a with | ⟨0, _⟩ => rfl | ⟨1, _⟩ => rfl
  have el : ∀ k : Fin 768, lidx_main_v0 (ix3 b n j) k = ix3 b n k := fun k => by
    funext a; match a with | ⟨0, _⟩ => rfl | ⟨1, _⟩ => rfl | ⟨2, _⟩ => rfl
  have er : ∀ k : Fin 768, ridx_main_v0 (ix3 b n j) k = ix2 k j := fun k => by
    funext a; match a with | ⟨0, _⟩ => rfl | ⟨1, _⟩ => rfl
  rw [e1]
  simp only [el, er, Ideal.mulf_def]
  rfl

/-! ## Splitting the projection into heads (reshape, transpose, slice, reshape) -/

/-- The reshape to five axes reads column t·768 + h·64 + e. -/
theorem idx4 (b : Fin 8) (n : Fin 1024) (t : Fin 3) (h : Fin 12) (e : Fin 64) :
    idx_main_v4 (ix5 b n t h e) = ix3 b n (Cert.Attn.col t h e) := by
  have hb := b.isLt; have hn := n.isLt; have ht := t.isLt; have hh := h.isLt; have he := e.isLt
  funext a
  match a with
  | ⟨0, _⟩ => exact Fin.ext (by
      show ((((b.val * 1024 + n.val) * 3 + t.val) * 12 + h.val) * 64 + e.val) / 2359296 = b.val; omega)
  | ⟨1, _⟩ => exact Fin.ext (by
      show ((((b.val * 1024 + n.val) * 3 + t.val) * 12 + h.val) * 64 + e.val) / 2304 % 1024 = n.val; omega)
  | ⟨2, _⟩ => exact Fin.ext (by
      show ((((b.val * 1024 + n.val) * 3 + t.val) * 12 + h.val) * 64 + e.val) % 2304 = t.val * 768 + h.val * 64 + e.val
      omega)

/-- The transpose brings the part and the head in front of the token. -/
theorem idx5 (t : Fin 3) (b : Fin 8) (h : Fin 12) (n : Fin 1024) (e : Fin 64) :
    idx_main_v5 (ix5 t b h n e) = ix5 b n t h e := by
  funext a
  match a with
  | ⟨0, _⟩ => rfl
  | ⟨1, _⟩ => rfl
  | ⟨2, _⟩ => rfl
  | ⟨3, _⟩ => rfl
  | ⟨4, _⟩ => rfl

/-- The first slice is part 0. -/
theorem idx6 (b : Fin 8) (h : Fin 12) (n : Fin 1024) (e : Fin 64) :
    idx_main_v6 (ix5 (0 : Fin 1) b h n e) = ix5 (0 : Fin 3) b h n e := by
  funext a
  match a with
  | ⟨0, _⟩ => rfl
  | ⟨1, _⟩ => rfl
  | ⟨2, _⟩ => rfl
  | ⟨3, _⟩ => rfl
  | ⟨4, _⟩ => rfl

/-- The second slice is part 1. -/
theorem idx8 (b : Fin 8) (h : Fin 12) (n : Fin 1024) (e : Fin 64) :
    idx_main_v8 (ix5 (0 : Fin 1) b h n e) = ix5 (1 : Fin 3) b h n e := by
  funext a
  match a with
  | ⟨0, _⟩ => rfl
  | ⟨1, _⟩ => rfl
  | ⟨2, _⟩ => rfl
  | ⟨3, _⟩ => rfl
  | ⟨4, _⟩ => rfl

/-- The third slice is part 2. -/
theorem idx10 (b : Fin 8) (h : Fin 12) (n : Fin 1024) (e : Fin 64) :
    idx_main_v10 (ix5 (0 : Fin 1) b h n e) = ix5 (2 : Fin 3) b h n e := by
  funext a
  match a with
  | ⟨0, _⟩ => rfl
  | ⟨1, _⟩ => rfl
  | ⟨2, _⟩ => rfl
  | ⟨3, _⟩ => rfl
  | ⟨4, _⟩ => rfl

/-- Dropping the leading axis of size one keeps the other four coordinates. -/
theorem idx7 (b : Fin 8) (h : Fin 12) (n : Fin 1024) (e : Fin 64) :
    idx_main_v7 (ix4 b h n e) = ix5 (0 : Fin 1) b h n e := by
  have hb := b.isLt; have hh := h.isLt; have hn := n.isLt; have he := e.isLt
  funext a
  match a with
  | ⟨0, _⟩ => rfl
  | ⟨1, _⟩ => exact Fin.ext (by
      show (((b.val * 12 + h.val) * 1024 + n.val) * 64 + e.val) / 786432 % 8 = b.val; omega)
  | ⟨2, _⟩ => exact Fin.ext (by
      show (((b.val * 12 + h.val) * 1024 + n.val) * 64 + e.val) / 65536 % 12 = h.val; omega)
  | ⟨3, _⟩ => exact Fin.ext (by
      show (((b.val * 12 + h.val) * 1024 + n.val) * 64 + e.val) / 64 % 1024 = n.val; omega)
  | ⟨4, _⟩ => exact Fin.ext (by
      show (((b.val * 12 + h.val) * 1024 + n.val) * 64 + e.val) % 64 = e.val; omega)

/-- Part t of head h, read at (b, h, n, e) after the reshape and the transpose. -/
theorem v5_apply (t : Fin 3) (b : Fin 8) (h : Fin 12) (n : Fin 1024) (e : Fin 64) :
    val_main_v5 (F := Ideal) X0 X1 X2 (ix5 t b h n e)
      = Cert.Attn.qkvR (xs X0) (ws X1) (Wqs X2) b n (Cert.Attn.col t h e) := by
  rw [val_main_v5_apply, idx5, val_main_v4_apply, idx4, v3_apply]

/-- The queries. -/
theorem v7_apply (b : Fin 8) (h : Fin 12) (n : Fin 1024) (e : Fin 64) :
    val_main_v7 (F := Ideal) X0 X1 X2 (ix4 b h n e) = Cert.Attn.qR (xs X0) (ws X1) (Wqs X2) b h n e := by
  rw [val_main_v7_apply, idx7, val_main_v6_apply, idx6, v5_apply]
  rfl

/-- The keys. -/
theorem v9_apply (b : Fin 8) (h : Fin 12) (n : Fin 1024) (e : Fin 64) :
    val_main_v9 (F := Ideal) X0 X1 X2 (ix4 b h n e) = Cert.Attn.kR (xs X0) (ws X1) (Wqs X2) b h n e := by
  rw [val_main_v9_apply, show idx_main_v9 (ix4 b h n e) = idx_main_v7 (ix4 b h n e) from rfl, idx7,
    val_main_v8_apply, idx8, v5_apply]
  rfl

/-- The values. -/
theorem v11_apply (b : Fin 8) (h : Fin 12) (n : Fin 1024) (e : Fin 64) :
    val_main_v11 (F := Ideal) X0 X1 X2 (ix4 b h n e) = Cert.Attn.vR (xs X0) (ws X1) (Wqs X2) b h n e := by
  rw [val_main_v11_apply, show idx_main_v11 (ix4 b h n e) = idx_main_v7 (ix4 b h n e) from rfl, idx7,
    val_main_v10_apply, idx10, v5_apply]
  rfl

/-! ## The scores and their row maximum -/

/-- The scaled scores of head h of batch b. -/
theorem v14_apply (b : Fin 8) (h : Fin 12) (n m : Fin 1024) :
    val_main_v14 (F := Ideal) X0 X1 X2 (ix4 b h n m)
      = Cert.Attn.scoreR (Cert.Attn.qR (xs X0) (ws X1) (Wqs X2) b h) (Cert.Attn.kR (xs X0) (ws X1) (Wqs X2) b h) n m := by
  rw [val_main_v14_apply, val_main_v12_apply, val_main_v13_apply, val_main_cst_apply]
  have el : ∀ k : Fin 64, lidx_main_v12 (ix4 b h n m) k = ix4 b h n k := fun k => by
    funext a; match a with | ⟨0, _⟩ => rfl | ⟨1, _⟩ => rfl | ⟨2, _⟩ => rfl | ⟨3, _⟩ => rfl
  have er : ∀ k : Fin 64, ridx_main_v12 (ix4 b h n m) k = ix4 b h m k := fun k => by
    funext a; match a with | ⟨0, _⟩ => rfl | ⟨1, _⟩ => rfl | ⟨2, _⟩ => rfl | ⟨3, _⟩ => rfl
  simp only [el, er, v7_apply, v9_apply, Ideal.mulf_def, Ideal.ofBits_def]
  rfl

/-- One axis of the scores is folded away: the last. -/
theorem reduces_last : S8x12x1024x1024.Reduces [3] S8x12x1024 := by decide

/-- The index over (b, h, n) with coordinate m put back on the last axis. -/
theorem lift_ix3 (b : Fin 8) (h : Fin 12) (n : Fin 1024) (k : Fin (S8x12x1024x1024.size 3)) :
    reduces_last.lift (ix3 b h n) k = ix4 b h n (⟨k.val, k.isLt⟩ : Fin 1024) := by
  funext c; apply Fin.ext
  fin_cases c <;> rfl

/-- The running maximum of a row of scores. -/
theorem v15_apply (b : Fin 8) (h : Fin 12) (n : Fin 1024) :
    val_main_v15 (F := Ideal) X0 X1 X2 (ix3 b h n)
      = Cert.Attn.rowMax (Cert.Attn.scoreR (Cert.Attn.qR (xs X0) (ws X1) (Wqs X2) b h) (Cert.Attn.kR (xs X0) (ws X1) (Wqs X2) b h) n) := by
  unfold val_main_v15
  rw [Host.reduce_eq_fold_single FloatOps.maximumf _ _ reducesTo_S8x12x1024x1024_S8x12x1024_d3 reduces_last h_S_]
  have hf : (val_main_v14 (F := Ideal) X0 X1 X2 ∘ reduces_last.lift (ix3 b h n))
      = fun m : Fin 1024 => Cert.Attn.scoreR (Cert.Attn.qR (xs X0) (ws X1) (Wqs X2) b h) (Cert.Attn.kR (xs X0) (ws X1) (Wqs X2) b h) n m :=
    funext fun k => by
      show val_main_v14 (F := Ideal) X0 X1 X2 (reduces_last.lift (ix3 b h n) k) = _
      rw [lift_ix3, v14_apply]
      rfl
  rw [hf]
  rfl

/-- The reference's row maximum. -/
theorem v17_apply (b : Fin 8) (h : Fin 12) (n : Fin 1024) :
    val_main_v17 (F := Ideal) X0 X1 X2 (ix3 b h n)
      = Cert.Attn.rowMaxR (Cert.Attn.scoreR (Cert.Attn.qR (xs X0) (ws X1) (Wqs X2) b h) (Cert.Attn.kR (xs X0) (ws X1) (Wqs X2) b h) n) := by
  rw [val_main_v17_apply, val_main_v16_apply, val_main_cst_1_apply, v15_apply]
  rfl

/-! ## The softmax weights -/

/-- The scores of head h of batch b. -/
abbrev sc (b : Fin 8) (h : Fin 12) : Fin 1024 → Fin 1024 → EReal :=
  Cert.Attn.scoreR (Cert.Attn.qR (xs X0) (ws X1) (Wqs X2) b h) (Cert.Attn.kR (xs X0) (ws X1) (Wqs X2) b h)

/-- The exponentials of the scores less the row maximum. -/
theorem v21_apply (b : Fin 8) (h : Fin 12) (n m : Fin 1024) :
    val_main_v21 (F := Ideal) X0 X1 X2 (ix4 b h n m) = Cert.Attn.expoR (sc X0 X1 X2 b h) n m := by
  rw [val_main_v21_apply, val_main_v20_apply, val_main_v19_apply, val_main_v18_apply]
  have e : idx_main_v18 (idx_main_v19 (ix4 b h n m)) = ix3 b h n := by
    funext a; match a with | ⟨0, _⟩ => rfl | ⟨1, _⟩ => rfl | ⟨2, _⟩ => rfl
  rw [e, v14_apply, v17_apply]
  rfl

/-- The sum of a row of exponentials, from zero. -/
theorem v22_apply (b : Fin 8) (h : Fin 12) (n : Fin 1024) :
    val_main_v22 (F := Ideal) X0 X1 X2 (ix3 b h n)
      = Cert.Attn.zero + ∑ m : Fin 1024, Cert.Attn.expoR (sc X0 X1 X2 b h) n m := by
  rw [val_main_v22_apply]
  have e : ∀ k : Fin 1024, idx_main_v22 (ix3 b h n) k = ix4 b h n k := fun k => by
    funext a; match a with | ⟨0, _⟩ => rfl | ⟨1, _⟩ => rfl | ⟨2, _⟩ => rfl | ⟨3, _⟩ => rfl
  simp only [e, v21_apply]
  rfl

/-- The softmax weight: an exponential over the sum of its row. -/
theorem v25_apply (b : Fin 8) (h : Fin 12) (n m : Fin 1024) :
    val_main_v25 (F := Ideal) X0 X1 X2 (ix4 b h n m)
      = Ideal.div (Cert.Attn.expoR (sc X0 X1 X2 b h) n m)
          (Cert.Attn.zero + ∑ m' : Fin 1024, Cert.Attn.expoR (sc X0 X1 X2 b h) n m') := by
  rw [val_main_v25_apply, val_main_v24_apply, val_main_v23_apply]
  have e : idx_main_v23 (idx_main_v24 (ix4 b h n m)) = ix3 b h n := by
    funext a; match a with | ⟨0, _⟩ => rfl | ⟨1, _⟩ => rfl | ⟨2, _⟩ => rfl
  rw [e, v21_apply, v22_apply]
  rfl

/-! ## The weighted values, the heads side by side, the output projection -/

/-- One head: the weights times the values. -/
theorem v26_apply (b : Fin 8) (h : Fin 12) (n : Fin 1024) (e : Fin 64) :
    val_main_v26 (F := Ideal) X0 X1 X2 (ix4 b h n e)
      = Cert.Attn.headR (Cert.Attn.qR (xs X0) (ws X1) (Wqs X2) b h) (Cert.Attn.kR (xs X0) (ws X1) (Wqs X2) b h)
          (Cert.Attn.vR (xs X0) (ws X1) (Wqs X2) b h) n e := by
  rw [val_main_v26_apply]
  have el : ∀ k : Fin 1024, lidx_main_v26 (ix4 b h n e) k = ix4 b h n k := fun k => by
    funext a; match a with | ⟨0, _⟩ => rfl | ⟨1, _⟩ => rfl | ⟨2, _⟩ => rfl | ⟨3, _⟩ => rfl
  have er : ∀ k : Fin 1024, ridx_main_v26 (ix4 b h n e) k = ix4 b h k e := fun k => by
    funext a; match a with | ⟨0, _⟩ => rfl | ⟨1, _⟩ => rfl | ⟨2, _⟩ => rfl | ⟨3, _⟩ => rfl
  simp only [el, er, v25_apply, v11_apply]
  rfl

/-- The transpose back puts the token before the head. -/
theorem idx27 (b : Fin 8) (n : Fin 1024) (h : Fin 12) (e : Fin 64) :
    idx_main_v27 (ix4 b n h e) = ix4 b h n e := by
  funext a
  match a with
  | ⟨0, _⟩ => rfl
  | ⟨1, _⟩ => rfl
  | ⟨2, _⟩ => rfl
  | ⟨3, _⟩ => rfl

/-- Column c of the concatenated heads is lane c mod 64 of head c / 64. -/
theorem idx28 (b : Fin 8) (n : Fin 1024) (c : Fin 768) :
    idx_main_v28 (ix3 b n c) = ix4 b n (Cert.Attn.headOf c) (Cert.Attn.laneOf c) := by
  have hb := b.isLt; have hn := n.isLt; have hc := c.isLt
  funext a
  match a with
  | ⟨0, _⟩ => exact Fin.ext (by
      show ((b.val * 1024 + n.val) * 768 + c.val) / 786432 = b.val; omega)
  | ⟨1, _⟩ => exact Fin.ext (by
      show ((b.val * 1024 + n.val) * 768 + c.val) / 768 % 1024 = n.val; omega)
  | ⟨2, _⟩ => exact Fin.ext (by
      show ((b.val * 1024 + n.val) * 768 + c.val) / 64 % 12 = c.val / 64; omega)
  | ⟨3, _⟩ => exact Fin.ext (by
      show ((b.val * 1024 + n.val) * 768 + c.val) % 64 = c.val % 64; omega)

/-- The heads side by side. -/
theorem v28_apply (b : Fin 8) (n : Fin 1024) (c : Fin 768) :
    val_main_v28 (F := Ideal) X0 X1 X2 (ix3 b n c)
      = Cert.Attn.headR (Cert.Attn.qR (xs X0) (ws X1) (Wqs X2) b (Cert.Attn.headOf c))
          (Cert.Attn.kR (xs X0) (ws X1) (Wqs X2) b (Cert.Attn.headOf c))
          (Cert.Attn.vR (xs X0) (ws X1) (Wqs X2) b (Cert.Attn.headOf c)) n (Cert.Attn.laneOf c) := by
  rw [val_main_v28_apply, idx28, val_main_v27_apply, idx27, v26_apply]

/-- The layer's result at (b, n, f), second arrangement. -/
theorem v32_apply (b : Fin 8) (n : Fin 1024) (f : Fin 768) :
    val_main_v32 (F := Ideal) X0 X1 X2 X3 X4 (ix3 b n f)
      = Cert.Attn.outR (xs X0) (ws X1) (Wqs X2) (fun c f => X3 (ix2 c f)) (fun f => X4 (ix1 f)) b n f := by
  rw [val_main_v32_apply, val_main_v31_apply, val_main_v30_apply, val_main_v29_apply]
  have e : idx_main_v30 (idx_main_v31 (ix3 b n f)) = ix1 f := by
    funext a; match a with | ⟨0, _⟩ => rfl
  have el : ∀ k : Fin 768, lidx_main_v29 (ix3 b n f) k = ix3 b n k := fun k => by
    funext a; match a with | ⟨0, _⟩ => rfl | ⟨1, _⟩ => rfl | ⟨2, _⟩ => rfl
  have er : ∀ k : Fin 768, ridx_main_v29 (ix3 b n f) k = ix2 k f := fun k => by
    funext a; match a with | ⟨0, _⟩ => rfl | ⟨1, _⟩ => rfl
  rw [e]
  simp only [el, er, v28_apply, Ideal.addf_def]
  rfl

end

/-- The reference program's result, element by element, is the layer in its second arrangement. -/
theorem ref_apply (X0 : (⟨S8x1024x768, .f32⟩ : BufTy).Contents (Elt Ideal)) (X1 : (⟨S8x1024, .f32⟩ : BufTy).Contents (Elt Ideal)) (X2 : (⟨S768x2304, .f32⟩ : BufTy).Contents (Elt Ideal)) (X3 : (⟨S768x768, .f32⟩ : BufTy).Contents (Elt Ideal)) (X4 : (⟨S768, .f32⟩ : BufTy).Contents (Elt Ideal)) (b : Fin 8) (n : Fin 1024) (f : Fin 768) :
    val_main_v32 (F := Ideal) X0 X1 X2 X3 X4 (ix3 b n f)
      = Cert.Attn.outR (fun b n d => X0 (ix3 b n d)) (fun b n => X1 (ix2 b n)) (fun d j => X2 (ix2 d j)) (fun c f => X3 (ix2 c f)) (fun f => X4 (ix1 f)) b n f :=
  v32_apply X0 X1 X2 X3 X4 b n f

end Cert.Attn.RefRead

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.Algebra.lean ====
/-
  The two arrangements of the attention layer agree on real-valued arguments.

  Everything here is algebra of the extended reals restricted to real-valued quantities: a real factor moves
  in and out of a finite sum, the running maximum of a nonempty row of reals is a real, the exponentials are
  positive reals, their sum is a nonzero real, and dividing a finite sum by a nonzero real is dividing each term.
-/
import proofs.«144339_j35923106463893_2_alg».proof.Proof.Spec
import proofs.«144339_j35923106463893_2_alg».proof.Proof.LibRealValued

open scoped BigOperators
open Idealize.ShloMosaic
open Cert.RealValued

namespace Cert.Attn

/-! ## The three constants -/

/-- The scale is the real number 1/8. -/
theorem scale_eq : scale = ((1 / 8 : ℝ) : EReal) := by
  simp [scale, Ideal.ofBits, Ideal.ieee, -EReal.coe_mul]; norm_num

/-- The scale is real-valued. -/
theorem isReal_scale : IsReal scale := ⟨1 / 8, scale_eq⟩

/-- The start of the running maxima is the least extended real. -/
theorem negInf_eq : negInf = ⊥ := by simp [negInf, Ideal.ofBits, Ideal.ieee]

/-- The start of the sums is zero. -/
theorem zero_eq : zero = 0 := Ideal.ofBits_zero_f32

/-! ## A real factor in a finite sum of products -/

/-- Σ_d (x(d) · w) · W(d) = w · Σ_d x(d) · W(d) for real-valued x, w, W. -/
theorem sum_mul_mul_eq {ι : Type*} [Fintype ι] (x W : ι → EReal) (w : EReal)
    (hx : ∀ d, IsReal (x d)) (hw : IsReal w) (hW : ∀ d, IsReal (W d)) :
    ∑ d, (x d * w) * W d = w * ∑ d, x d * W d := by
  choose x' hx' using hx
  choose W' hW' using hW
  obtain ⟨w', rfl⟩ := hw
  simp only [hx', hW', ← EReal.coe_mul, ← coe_sum]
  congr 1
  rw [Finset.mul_sum]
  exact Finset.sum_congr rfl fun d _ => by ring

/-- Σ_e (q(e) · c) · k(e) = (Σ_e q(e) · k(e)) · c for real-valued q, k, c. -/
theorem sum_mul_mul_eq' {ι : Type*} [Fintype ι] (q k : ι → EReal) (c : EReal)
    (hq : ∀ e, IsReal (q e)) (hk : ∀ e, IsReal (k e)) (hc : IsReal c) :
    ∑ e, (q e * c) * k e = (∑ e, q e * k e) * c := by
  rw [mul_comm (∑ e, q e * k e) c]
  exact sum_mul_mul_eq q k c hq hc hk

/-! ## The scores -/

/-- With the scale in the queries or on the contraction, the scores are the same. -/
theorem scoreK_eq_scoreR (q k qs : Fin 1024 → Fin 64 → EReal)
    (hq : ∀ n e, IsReal (q n e)) (hk : ∀ m e, IsReal (k m e))
    (hqs : ∀ n e, qs n e = q n e * scale) (n m : Fin 1024) :
    scoreK qs k n m = scoreR q k n m := by
  unfold scoreK scoreR
  simp only [hqs]
  exact sum_mul_mul_eq' (q n) (k m) scale (hq n) (hk m) isReal_scale

/-- The scores of real-valued queries and keys are real-valued. -/
theorem isReal_scoreR (q k : Fin 1024 → Fin 64 → EReal)
    (hq : ∀ n e, IsReal (q n e)) (hk : ∀ m e, IsReal (k m e)) (n m : Fin 1024) :
    IsReal (scoreR q k n m) := by
  unfold scoreR
  exact (IsReal.sum _ _ fun e _ => (hq n e).mul (hk m e)).mul isReal_scale

/-! ## The running maximum -/

/-- The running maximum from the least element is the supremum of the row. -/
theorem rowMax_eq_sup (s : Fin 1024 → EReal) : rowMax s = Finset.univ.sup s := by
  show (Finset.univ : Finset (Fin 1024)).fold max negInf s = _
  rw [negInf_eq]
  rfl

/-- One more maximum against the least element changes nothing. -/
theorem rowMaxR_eq (s : Fin 1024 → EReal) : rowMaxR s = rowMax s := by
  show max negInf (rowMax s) = rowMax s
  rw [negInf_eq]
  exact max_eq_right bot_le

/-- The running maximum of a (nonempty) row of real-valued scores is one of them, hence real-valued. -/
theorem isReal_rowMax (s : Fin 1024 → EReal) (hs : ∀ m, IsReal (s m)) : IsReal (rowMax s) := by
  obtain ⟨i, _, hi⟩ :=
    Finset.exists_mem_eq_sup (Finset.univ : Finset (Fin 1024)) Finset.univ_nonempty s
  rw [rowMax_eq_sup, hi]
  exact hs i

/-- Each exponential of a real-valued row less its maximum is a positive real. -/
theorem expoK_pos (s : Fin 1024 → Fin 1024 → EReal) (hs : ∀ n m, IsReal (s n m)) (n m : Fin 1024) :
    ∃ p : ℝ, 0 < p ∧ expoK s n m = (p : EReal) := by
  obtain ⟨r, hr⟩ := (hs n m).sub (isReal_rowMax (s n) (hs n))
  unfold expoK
  rw [hr]
  exact exp_coe_pos r

/-- The two rows of exponentials are the same. -/
theorem expoR_eq_expoK (s : Fin 1024 → Fin 1024 → EReal) (n m : Fin 1024) :
    expoR s n m = expoK s n m := by
  unfold expoR expoK
  rw [rowMaxR_eq]

/-! ## Normalising last or first -/

/-- (Σ_m p(m) · v(m)) / Σ_m p(m) = Σ_m (p(m) / (0 + Σ_m' p(m'))) · v(m) for reals with Σ p ≠ 0. -/
theorem div_sum_eq_sum_div {ι : Type*} [Fintype ι] (p v : ι → ℝ) (hl : (∑ m, p m) ≠ 0) :
    Ideal.div (∑ m, (p m : EReal) * (v m : EReal)) (∑ m, (p m : EReal))
      = ∑ m, Ideal.div (p m : EReal) (zero + ∑ m', (p m' : EReal)) * (v m : EReal) := by
  rw [zero_eq, zero_add, ← coe_sum, Ideal.div_coe hl]
  simp only [Ideal.div_coe hl, ← EReal.coe_mul, ← coe_sum]
  congr 1
  rw [Finset.sum_mul]
  exact Finset.sum_congr rfl fun m _ => by ring

/-- One head on real-valued scores and values: normalised last equals normalised first. -/
theorem head_eq_of_isReal (s : Fin 1024 → Fin 1024 → EReal) (v : Fin 1024 → Fin 64 → EReal)
    (hs : ∀ n m, IsReal (s n m)) (hv : ∀ m e, IsReal (v m e)) (n : Fin 1024) (e : Fin 64) :
    Ideal.div (∑ m : Fin 1024, expoK s n m * v m e) (∑ m : Fin 1024, expoK s n m)
      = ∑ m : Fin 1024, Ideal.div (expoR s n m) (zero + ∑ m' : Fin 1024, expoR s n m') * v m e := by
  simp only [expoR_eq_expoK]
  choose p hp0 hp using fun m => expoK_pos s hs n m
  choose v' hv' using fun m => hv m e
  simp only [hp, hv']
  exact div_sum_eq_sum_div p v' (Finset.sum_pos (fun m _ => hp0 m) Finset.univ_nonempty).ne'

/-- One head: the two arrangements agree on real-valued queries, keys and values. -/
theorem headK_eq_headR (q k v qs : Fin 1024 → Fin 64 → EReal)
    (hq : ∀ n e, IsReal (q n e)) (hk : ∀ m e, IsReal (k m e)) (hv : ∀ m e, IsReal (v m e))
    (hqs : ∀ n e, qs n e = q n e * scale) (n : Fin 1024) (e : Fin 64) :
    headK qs k v n e = headR q k v n e := by
  have hS : scoreK qs k = scoreR q k :=
    funext fun n => funext fun m => scoreK_eq_scoreR q k qs hq hk hqs n m
  unfold headK headR
  rw [hS]
  exact head_eq_of_isReal (scoreR q k) v (fun n m => isReal_scoreR q k hq hk n m) hv n e

/-! ## The whole layer -/

section
variable (x : Fin 8 → Fin 1024 → Fin 768 → EReal) (w : Fin 8 → Fin 1024 → EReal)
  (Wq : Fin 768 → Fin 2304 → EReal)

/-- The gate before or after the joint projection. -/
theorem qkvK_eq_qkvR (hx : ∀ b n d, IsReal (x b n d)) (hw : ∀ b n, IsReal (w b n))
    (hWq : ∀ d j, IsReal (Wq d j)) (b : Fin 8) (n : Fin 1024) (j : Fin 2304) :
    qkvK x w Wq b n j = qkvR x w Wq b n j := by
  unfold qkvK qkvR
  exact sum_mul_mul_eq (x b n) (fun d => Wq d j) (w b n) (hx b n) (hw b n) (fun d => hWq d j)

/-- The joint projection of real-valued arguments is real-valued. -/
theorem isReal_qkvR (hx : ∀ b n d, IsReal (x b n d)) (hw : ∀ b n, IsReal (w b n))
    (hWq : ∀ d j, IsReal (Wq d j)) (b : Fin 8) (n : Fin 1024) (j : Fin 2304) :
    IsReal (qkvR x w Wq b n j) := by
  unfold qkvR
  exact (hw b n).mul (IsReal.sum _ _ fun d _ => (hx b n d).mul (hWq d j))

end

/-- The two arrangements of the layer agree on real-valued arguments (the output projection and the bias enter
    both sides alike, so their being real-valued is not used). -/
theorem outK_eq_outR (x : Fin 8 → Fin 1024 → Fin 768 → EReal) (w : Fin 8 → Fin 1024 → EReal)
    (Wq : Fin 768 → Fin 2304 → EReal) (Wm : Fin 768 → Fin 768 → EReal) (bm : Fin 768 → EReal)
    (hx : ∀ b n d, IsReal (x b n d)) (hw : ∀ b n, IsReal (w b n)) (hWq : ∀ d j, IsReal (Wq d j))
    (hWm : ∀ c f, IsReal (Wm c f)) (hbm : ∀ f, IsReal (bm f))
    (b : Fin 8) (n : Fin 1024) (f : Fin 768) :
    Cert.Attn.outK x w Wq Wm bm b n f = Cert.Attn.outR x w Wq Wm bm b n f := by
  have hqkv := qkvK_eq_qkvR x w Wq hx hw hWq
  have hreal := isReal_qkvR x w Wq hx hw hWq
  unfold outK outR
  congr 1
  refine Finset.sum_congr rfl fun c _ => ?_
  congr 1
  have hk : kK x w Wq b (headOf c) = kR x w Wq b (headOf c) :=
    funext fun m => funext fun e => hqkv b m (col 1 (headOf c) e)
  have hv : vK x w Wq b (headOf c) = vR x w Wq b (headOf c) :=
    funext fun m => funext fun e => hqkv b m (col 2 (headOf c) e)
  rw [hk, hv]
  refine headK_eq_headR (qR x w Wq b (headOf c)) (kR x w Wq b (headOf c)) (vR x w Wq b (headOf c))
    (qK x w Wq b (headOf c)) (fun m e => hreal b m _) (fun m e => hreal b m _) (fun m e => hreal b m _)
    (fun m e => ?_) n (laneOf c)
  show qkvK x w Wq b m (col 0 (headOf c) e) * scale = qkvR x w Wq b m (col 0 (headOf c) e) * scale
  rw [hqkv]

end Cert.Attn
-- ==== Proof.Bridge.lean ====
/-
  On real-valued arguments the layer in its first arrangement ("gate first, normalise last"), tabulated over the
  result's index set, is the reference program's result: at each index (b, n, f) the first arrangement equals the
  second (distributivity over finite sums, proved in the algebra module), and the second is what the reference program
  computes there (the element-by-element reading of the reference program).
-/
import proofs.«144339_j35923106463893_2_alg».proof.Proof.RefRead
import proofs.«144339_j35923106463893_2_alg».proof.Proof.Algebra
import proofs.«144339_j35923106463893_2_alg».proof.Proof.LibRealValued
import proofs.«144339_j35923106463893_2_alg».proof.Proof.Spec
import Idealize.ShloMosaic.Lib.ValueIdx

noncomputable section

open scoped BigOperators

namespace Cert.Attn.Bridge

open Idealize.ShloMosaic Idealize.ShloMosaic.ValueIdx Cert.ReferenceIdeal Cert.RealValued

/-- The first arrangement, tabulated over the index set of the result, is the reference program's result whenever
    every argument is real-valued. -/
theorem first_eq_reference (X0 : (⟨S8x1024x768, .f32⟩ : BufTy).Contents (Elt Ideal)) (X1 : (⟨S8x1024, .f32⟩ : BufTy).Contents (Elt Ideal)) (X2 : (⟨S768x2304, .f32⟩ : BufTy).Contents (Elt Ideal)) (X3 : (⟨S768x768, .f32⟩ : BufTy).Contents (Elt Ideal)) (X4 : (⟨S768, .f32⟩ : BufTy).Contents (Elt Ideal))
    (h0 : ∀ i, IsReal (X0 i)) (h1 : ∀ i, IsReal (X1 i)) (h2 : ∀ i, IsReal (X2 i)) (h3 : ∀ i, IsReal (X3 i)) (h4 : ∀ i, IsReal (X4 i)) :
    (fun i : S8x1024x768.Idx => Cert.Attn.outK (fun b n d => X0 (ix3 b n d)) (fun b n => X1 (ix2 b n)) (fun d j => X2 (ix2 d j)) (fun c f => X3 (ix2 c f)) (fun f => X4 (ix1 f)) (i 0) (i 1) (i 2))
      = Cert.ReferenceIdeal.Read.val_main_v32 (F := Ideal) X0 X1 X2 X3 X4 := by
  funext i
  obtain ⟨b, n, f, rfl⟩ : ∃ (b : Fin 8) (n : Fin 1024) (f : Fin 768), i = ix3 b n f := ⟨i 0, i 1, i 2, eq_ix3 i⟩
  show Cert.Attn.outK (fun b n d => X0 (ix3 b n d)) (fun b n => X1 (ix2 b n)) (fun d j => X2 (ix2 d j))
      (fun c f => X3 (ix2 c f)) (fun f => X4 (ix1 f)) b n f
    = Cert.ReferenceIdeal.Read.val_main_v32 (F := Ideal) X0 X1 X2 X3 X4 (ix3 b n f)
  exact (Cert.Attn.outK_eq_outR _ _ _ _ _ (fun b n d => h0 (ix3 b n d)) (fun b n => h1 (ix2 b n))
      (fun d j => h2 (ix2 d j)) (fun c f => h3 (ix2 c f)) (fun f => h4 (ix1 f)) b n f).trans
    (Cert.Attn.RefRead.ref_apply X0 X1 X2 X3 X4 b n f).symm

end Cert.Attn.Bridge

end
-- ==== Proof.Finite.lean ====
/-
  Finite inputs are real-valued. The precondition computes, for each of the five arguments, whether every entry has
  an absolute value strictly below plus infinity, and takes the conjunction of the five answers. In the extended
  reals an entry x with max x (-x) < ⊤ is neither ⊤ nor ⊥, hence the image of a real number. So a precondition that
  evaluates to true makes every entry of every argument real-valued.
-/
import proofs.«144339_j35923106463893_2_alg».proof.Pre_finite_inputs
import proofs.«144339_j35923106463893_2_alg».proof.Proof.LibRealValued
import Idealize.ShloMosaic.Lib.ValueIdx
import Idealize.ShloMosaic.Lib.ReduceAll
import Idealize.ShloMosaic.PureOps.Ideal.Laws

noncomputable section

namespace Cert.Attn.Finite

open Idealize.ShloMosaic Cert.RealValued

/-- The scalar shape has exactly one index. -/
instance : Subsingleton Cert.Pre_finite_inputs.S_.Idx := ⟨fun a b => funext fun d => d.elim0⟩

/-- The 32-bit pattern 0x7F800000 reads as plus infinity. -/
theorem inf_bits : Ideal.ofBits .f32 0x7F800000#32 = (⊤ : EReal) := by
  simp [Ideal.ofBits, Ideal.ieee]

/-- One entry: if |x| < +∞ holds (the comparison bit is 1), then x is the image of a real number. -/
theorem isReal_of_abs_lt_inf (x : Ideal .f32)
    (h : FloatOps.cmpf .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [inf_bits] at h
  unfold Ideal.cmp at h
  have hlt : max (x : EReal) (-(x : EReal)) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- One argument, at any shape: if the conjunction over all entries of |x| < +∞ is true, every entry is real-valued. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, IsReal (x i) := by
  intro i
  have hi := Host.reduce_andi_all _ _ hr hu ValueIdx.ix0 e i
  exact isReal_of_abs_lt_inf (x i) hi

/-- A precondition that evaluates to true makes every entry of each of the five arguments real-valued. -/
theorem real_of_pre [Cert.Pre_finite_inputs.Facts]
    (a0 : FVec Ideal Cert.Pre_finite_inputs.S8x1024x768 .f32) (a1 : FVec Ideal Cert.Pre_finite_inputs.S8x1024 .f32)
    (a2 : FVec Ideal Cert.Pre_finite_inputs.S768x2304 .f32) (a3 : FVec Ideal Cert.Pre_finite_inputs.S768x768 .f32)
    (a4 : FVec Ideal Cert.Pre_finite_inputs.S768 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧
      (∀ i, IsReal (a4 i)) := by
  have h0 := congrFun h ValueIdx.ix0
  dsimp only [Cert.Pre_finite_inputs.fn, Cert.Pre_finite_inputs.fn_part1] at h0
  change IntOp.andi (IntOp.andi (IntOp.andi (IntOp.andi _ _) _) _) _ = 1#1 at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ e0, isReal_of_all a1 _ _ _ e1, isReal_of_all a2 _ _ _ e2,
    isReal_of_all a3 _ _ _ e3, isReal_of_all a4 _ _ _ e4⟩

end Cert.Attn.Finite

end
-- ==== Proof.lean ====
/-
  Multi-head self-attention with a per-token gate (8 batches of 1024 tokens of width 768, twelve heads of width 64):
  a fused kernel, one batch per grid point, against the plain array program.

  The kernel gates the token before the joint projection, scales the query by 1/8 before the scores, and divides the
  weighted sum of the values by the sum of the exponentials; the reference gates the projected row, scales the score,
  and normalises each exponential before it weighs a value. On the extended reals these differ at the infinities, but
  under the precondition every argument entry is a real number, every intermediate quantity is then real, the row sum of
  exponentials is a positive real, and the two arrangements are one function by distributivity over finite sums.

  The kernel's result array is read block by block: grid point t writes batch t, the body's stored value at (0, n, f) is
  the first arrangement on the loaded blocks, and the eight blocks cover the array. The reference's result is read one
  operation at a time as the second arrangement. The three frames are the generated ones; the idealization rewrote
  nothing, so there is nothing to preserve.
-/
import proofs.«144339_j35923106463893_2_alg».proof.Defs
import proofs.«144339_j35923106463893_2_alg».proof.Proof.Gen.Kernel
import proofs.«144339_j35923106463893_2_alg».proof.Proof.Gen.Kernel.Skeleton
import proofs.«144339_j35923106463893_2_alg».proof.Proof.Gen.Kernel.Launch
import proofs.«144339_j35923106463893_2_alg».proof.Proof.Gen.Kernel.Points
import proofs.«144339_j35923106463893_2_alg».proof.Proof.Gen.Kernel.Frame
import proofs.«144339_j35923106463893_2_alg».proof.Proof.Gen.KernelIdeal
import proofs.«144339_j35923106463893_2_alg».proof.Proof.Gen.KernelIdeal.Skeleton
import proofs.«144339_j35923106463893_2_alg».proof.Proof.Gen.KernelIdeal.Launch
import proofs.«144339_j35923106463893_2_alg».proof.Proof.Gen.KernelIdeal.Points
import proofs.«144339_j35923106463893_2_alg».proof.Proof.Gen.KernelIdeal.Frame
import proofs.«144339_j35923106463893_2_alg».proof.Proof.Gen.ReferenceIdeal
import proofs.«144339_j35923106463893_2_alg».proof.Proof.Gen.Pre_finite_inputs
import proofs.«144339_j35923106463893_2_alg».proof.Proof.Gen.KernelIdeal.Value
import proofs.«144339_j35923106463893_2_alg».proof.Proof.Gen.ReferenceIdeal.Run
import proofs.«144339_j35923106463893_2_alg».proof.Proof.Gen.ReferenceIdeal.Read
import proofs.«144339_j35923106463893_2_alg».proof.Proof.Body
import proofs.«144339_j35923106463893_2_alg».proof.Proof.Blocks
import proofs.«144339_j35923106463893_2_alg».proof.Proof.Bridge
import proofs.«144339_j35923106463893_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the kernel's result array is the reference's function of the kernel's arguments: the array
    is the first arrangement block by block, every argument entry is real, and on real arguments the first arrangement
    is what the reference computes. -/
theorem kernel_result (m : (ℓ : Loc Cert.KernelIdeal.nD Cert.KernelIdeal.τ Cert.KernelIdeal.sig) → Buf (Elt Ideal) ℓ) (hpre : Cert.Pre_KernelIdeal m) (c : Dev Cert.KernelIdeal.nD) :
    (Cert.KernelIdeal.Gen.dats m 0 c).arrAt 5 Cert.KernelIdeal.cfg0.N
      = Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.Attn.Blocks.final (fun x0 x1 x2 x3 x4 b n f => Cert.Attn.Kernel.out_apply x0 x1 x2 x3 x4 b n f) m c]
  obtain ⟨h0, h1, h2, h3, h4⟩ := Cert.Attn.Finite.real_of_pre _ _ _ _ _ (hpre c)
  exact Cert.Attn.Bridge.first_eq_reference _ _ _ _ _ h0 h1 h2 h3 h4

/-- From memories agreeing on the arguments both idealized programs end with the same result. -/
theorem algebraic : Cert.algebraic_KernelIdeal_ReferenceIdeal := by
  intro m ρ m' ρ' hpre hagree
  refine ⟨fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (kernel_result m hpre c), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
